-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S64x128 : Shape := ⟨2, ![64, 128]⟩
abbrev S64 : Shape := ⟨1, ![64]⟩
abbrev S8192 : Shape := ⟨1, ![8192]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S8192 .f32) (main_arg5 : FVec F S8192 .f32) (main_arg6 : FVec F S8192 .f32) (main_arg7 : FVec F S8192 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_v33

def fn {F : FTy → Type} [FloatOps F] (main_arg0 : FVec F S64x4096x128 .f32) (main_arg1 : FVec F S64x128 .f32) (main_arg2 : FVec F S64 .f32) (main_arg3 : FVec F S64x128 .f32) (main_arg4 : FVec F S8192 .f32) (main_arg5 : FVec F S8192 .f32) (main_arg6 : FVec F S8192 .f32) (main_arg7 : FVec F S8192 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_v13 main_v16
-- ==== Kernel.lean ====
abbrev S64x4096x128 : Shape := ⟨3, ![64, 4096, 128]⟩
abbrev S64x128 : Shape := ⟨2, ![64, 128]⟩
abbrev S64 : Shape := ⟨1, ![64]⟩
abbrev S8192 : Shape := ⟨1, ![8192]⟩
abbrev S128x64 : Shape := ⟨2, ![128, 64]⟩
abbrev S64x64x128 : Shape := ⟨3, ![64, 64, 128]⟩
abbrev S1x1024x128 : Shape := ⟨3, ![1, 1024, 128]⟩
abbrev S1x64x128 : Shape := ⟨3, ![1, 64, 128]⟩
abbrev S1024x128 : Shape := ⟨2, ![1024, 128]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S64x1 : Shape := ⟨2, ![64, 1]⟩
abbrev S64x8192 : Shape := ⟨2, ![64, 8192]⟩

abbrev nBuf : Space → Nat
  | .hbm => 16
  | .vmem => 13
  | .smem => 0
  | _ => 0

abbrev bufTy : (tb : Table) → Fin (tcTables nBuf tb) → BufTy
  | .hbm, ⟨0, _⟩ => ⟨S64x4096x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S128x64, .f32⟩
  | .hbm, ⟨9, _⟩ => ⟨S128x64, .bf16⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S64x64x128, .f32⟩
  | .hbm, ⟨15, _⟩ => ⟨S64x8192, .f32⟩
  | .local _ .vmem, ⟨0, _⟩ => ⟨S1x1024x128, .f32⟩
  | .local _ .vmem, ⟨1, _⟩ => ⟨S1x1024x128, .f32⟩
  | .local _ .vmem, ⟨2, _⟩ => ⟨S128x64, .bf16⟩
  | .local _ .vmem, ⟨3, _⟩ => ⟨S64, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S1x64x128, .f32⟩
  | .local _ .vmem, ⟨10, _⟩ => ⟨S1x64x128, .f32⟩
  | .local _ .vmem, ⟨11, _⟩ => ⟨S64x128, .f32⟩
  | .local _ .vmem, ⟨12, _⟩ => ⟨S64x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_21 : BitVec 32 := 0#32
  let v46 : BitVec 1 := Scalar.cmpi .ne v45 c0_i32_21
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S64x128_S128x64_1_0 : S64x128.Transposes [1, 0] S128x64
  bitsLt_bf16_f32 : FTy.bits .bf16 < FTy.bits .f32
  shapeCasts_S8192_S64x128 : S8192.ShapeCasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  broadcasts_S1024x1_S1024x64 : S1024x1.Broadcasts S1024x64
  reduces_S64x128_S64 : S64x128.Reduces [1] S64
  shapeCasts_S64_S64x1 : S64.ShapeCasts S64x1
  broadcasts_S64x1_S64x128 : S64x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S64x64x128_S64x8192 : S64x64x128.ShapeCasts S64x8192
  dot_S1024x128_S128x64_S1024x64_1_0_0_1_n_n_wf : DotDims.WF S1024x128 S128x64 S1024x64 [1] [0] [0] [1] [] []
  dot_S1024x64_S1024x128_S64x128_0_0_1_1_n_n_wf : DotDims.WF S1024x64 S1024x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x4096x128.size a
  hwx0_0 : ∀ i : grid0.Coords, EltTy.bits .f32 = 32 ∨ (Rect.block (s := S64x4096x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128.size a ≤ S64x64x128.size a
  hwx0_8 : ∀ i : grid0.Coords, EltTy.bits .f32 = 32 ∨ (Rect.block (s := S64x64x128) S1x64x128.size (cc0_transform_8 i) (hinb0_8 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S1024x128_S64x128_0_0_1_1_n_n : DotDims S1024x64 S1024x128 S64x128 where
  lhsContracting := [0]
  rhsContracting := [0]
  lhsNonContracting := [1]
  rhsNonContracting := [1]
  lhsBatch := []
  rhsBatch := []
  wf := dot_S1024x64_S1024x128_S64x128_0_0_1_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S64x4096x128 : Shape := ⟨3, ![64, 4096, 128]⟩
abbrev S64x128 : Shape := ⟨2, ![64, 128]⟩
abbrev S64 : Shape := ⟨1, ![64]⟩
abbrev S8192 : Shape := ⟨1, ![8192]⟩
abbrev S_ : Shape := ⟨0, ![]⟩
abbrev S64x4096 : Shape := ⟨2, ![64, 4096]⟩
abbrev S64x4096x1 : Shape := ⟨3, ![64, 4096, 1]⟩
abbrev S64x4096x64 : Shape := ⟨3, ![64, 4096, 64]⟩
abbrev S1x1x64 : Shape := ⟨3, ![1, 1, 64]⟩
abbrev S64x64x128 : Shape := ⟨3, ![64, 64, 128]⟩
abbrev S64x64 : Shape := ⟨2, ![64, 64]⟩
abbrev S64x64x1 : Shape := ⟨3, ![64, 64, 1]⟩
abbrev S1x64x128 : Shape := ⟨3, ![1, 64, 128]⟩
abbrev S64x8192 : Shape := ⟨2, ![64, 8192]⟩
abbrev S1x8192 : Shape := ⟨2, ![1, 8192]⟩

abbrev nBuf : Space → Nat
  | .hbm => 72
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x128, .f32⟩
  | .hbm, ⟨2, _⟩ => ⟨S64, .f32⟩
  | .hbm, ⟨3, _⟩ => ⟨S64x128, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S64x4096x128, .f32⟩
  | .hbm, ⟨9, _⟩ => ⟨S_, .f32⟩
  | .hbm, ⟨10, _⟩ => ⟨S64x4096, .f32⟩
  | .hbm, ⟨11, _⟩ => ⟨S64x4096x1, .f32⟩
  | .hbm, ⟨12, _⟩ => ⟨S64x4096x1, .f32⟩
  | .hbm, ⟨13, _⟩ => ⟨S_, .f32⟩
  | .hbm, ⟨14, _⟩ => ⟨S64x4096x1, .f32⟩
  | .hbm, ⟨15, _⟩ => ⟨S64x4096x1, .f32⟩
  | .hbm, ⟨16, _⟩ => ⟨S64x4096x128, .f32⟩
  | .hbm, ⟨17, _⟩ => ⟨S64x4096x128, .f32⟩
  | .hbm, ⟨18, _⟩ => ⟨S64x4096x64, .f32⟩
  | .hbm, ⟨19, _⟩ => ⟨S1x1x64, .f32⟩
  | .hbm, ⟨20, _⟩ => ⟨S64x4096x64, .f32⟩
  | .hbm, ⟨21, _⟩ => ⟨S64x4096x64, .f32⟩
  | .hbm, ⟨22, _⟩ => ⟨S_, .f32⟩
  | .hbm, ⟨23, _⟩ => ⟨S64x4096, .f32⟩
  | .hbm, ⟨24, _⟩ => ⟨S_, .f32⟩
  | .hbm, ⟨25, _⟩ => ⟨S64x4096, .f32⟩
  | .hbm, ⟨26, _⟩ => ⟨S64x4096, .f32⟩
  | .hbm, ⟨27, _⟩ => ⟨S64x4096x1, .f32⟩
  | .hbm, ⟨28, _⟩ => ⟨S64x4096x64, .f32⟩
  | .hbm, ⟨29, _⟩ => ⟨S64x4096x64, .f32⟩
  | .hbm, ⟨30, _⟩ => ⟨S64x4096x64, .f32⟩
  | .hbm, ⟨31, _⟩ => ⟨S_, .f32⟩
  | .hbm, ⟨32, _⟩ => ⟨S64x4096, .f32⟩
  | .hbm, ⟨33, _⟩ => ⟨S64x4096x1, .f32⟩
  | .hbm, ⟨34, _⟩ => ⟨S64x4096x64, .f32⟩
  | .hbm, ⟨35, _⟩ => ⟨S64x4096x64, .f32⟩
  | .hbm, ⟨36, _⟩ => ⟨S64x64x128, .f32⟩
  | .hbm, ⟨37, _⟩ => ⟨S_, .f32⟩
  | .hbm, ⟨38, _⟩ => ⟨S64x64, .f32⟩
  | .hbm, ⟨39, _⟩ => ⟨S64x64x1, .f32⟩
  | .hbm, ⟨40, _⟩ => ⟨S1x64x128, .f32⟩
  | .hbm, ⟨41, _⟩ => ⟨S64x64x128, .f32⟩
  | .hbm, ⟨42, _⟩ => ⟨S64x64x128, .f32⟩
  | .hbm, ⟨43, _⟩ => ⟨S64x64x128, .f32⟩
  | .hbm, ⟨44, _⟩ => ⟨S64x64x128, .f32⟩
  | .hbm, ⟨45, _⟩ => ⟨S64x64x128, .f32⟩
  | .hbm, ⟨46, _⟩ => ⟨S_, .f32⟩
  | .hbm, ⟨47, _⟩ => ⟨S64x64, .f32⟩
  | .hbm, ⟨48, _⟩ => ⟨S64x64x1, .f32⟩
  | .hbm, ⟨49, _⟩ => ⟨S64x64x1, .f32⟩
  | .hbm, ⟨50, _⟩ => ⟨S_, .f32⟩
  | .hbm, ⟨51, _⟩ => ⟨S64x64x1, .f32⟩
  | .hbm, ⟨52, _⟩ => ⟨S64x64x1, .f32⟩
  | .hbm, ⟨53, _⟩ => ⟨S64x64x128, .f32⟩
  | .hbm, ⟨54, _⟩ => ⟨S64x64x128, .f32⟩
  | .hbm, ⟨55, _⟩ => ⟨S64x8192, .f32⟩
  | .hbm, ⟨56, _⟩ => ⟨S1x8192, .f32⟩
  | .hbm, ⟨57, _⟩ => ⟨S64x8192, .f32⟩
  | .hbm, ⟨58, _⟩ => ⟨S64x8192, .f32⟩
  | .hbm, ⟨59, _⟩ => ⟨S1x8192, .f32⟩
  | .hbm, ⟨60, _⟩ => ⟨S64x8192, .f32⟩
  | .hbm, ⟨61, _⟩ => ⟨S64x8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S1x8192, .f32⟩
  | .hbm, ⟨67, _⟩ => ⟨S64x8192, .f32⟩
  | .hbm, ⟨68, _⟩ => ⟨S64x8192, .f32⟩
  | .hbm, ⟨69, _⟩ => ⟨S1x8192, .f32⟩
  | .hbm, ⟨70, _⟩ => ⟨S64x8192, .f32⟩
  | .hbm, ⟨71, _⟩ => ⟨S64x8192, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  reducesTo_S64x4096x128_S64x4096_d2 : S64x4096x128.ReducesTo [2] S64x4096
  h_S_ : 0 < S_.numel
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x128_0_1_2 : S64x4096x1.BroadcastsInDim S64x4096x128 (![0, 1, 2] : Fin 3 → Fin S64x4096x128.rank)
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  reducesTo_S64x4096x64_S64x4096_d2 : S64x4096x64.ReducesTo [2] S64x4096
  bcast_S_S64x4096 : S_.BroadcastsInDim S64x4096 (![] : Fin 0 → Fin S64x4096.rank)
  bcast_S64x4096x1_S64x4096x64_0_1_2 : S64x4096x1.BroadcastsInDim S64x4096x64 (![0, 1, 2] : Fin 3 → Fin S64x4096x64.rank)
  reducesTo_S64x4096x64_S64x64_d1 : S64x4096x64.ReducesTo [1] S64x64
  bcast_S64x64_S64x64x1_0_1 : S64x64.BroadcastsInDim S64x64x1 (![0, 1] : Fin 2 → Fin S64x64x1.rank)
  bcast_S64x128_S1x64x128_1_2 : S64x128.BroadcastsInDim S1x64x128 (![1, 2] : Fin 2 → Fin S1x64x128.rank)
  bcast_S64x64x1_S64x64x128_0_1_2 : S64x64x1.BroadcastsInDim S64x64x128 (![0, 1, 2] : Fin 3 → Fin S64x64x128.rank)
  bcast_S1x64x128_S64x64x128_0_1_2 : S1x64x128.BroadcastsInDim S64x64x128 (![0, 1, 2] : Fin 3 → Fin S64x64x128.rank)
  reducesTo_S64x64x128_S64x64_d2 : S64x64x128.ReducesTo [2] S64x64
  bcast_S_S64x64x1 : S_.BroadcastsInDim S64x64x1 (![] : Fin 0 → Fin S64x64x1.rank)
  shapeCasts_S64x64x128_S64x8192 : S64x64x128.ShapeCasts S64x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S8192 : S_.BroadcastsInDim S8192 (![] : Fin 0 → Fin S8192.rank)
  dot_S64x4096x128_S64x128_S64x4096x64_2_1_01_0_n_n_wf : DotDims.WF S64x4096x128 S64x128 S64x4096x64 [2] [1] [0, 1] [0] [] []
  dot_S64x4096x64_S64x4096x128_S64x64x128_1_1_2_2_0_0_wf : DotDims.WF S64x4096x64 S64x4096x128 S64x64x128 [1] [1] [2] [2] [0] [0]

variable [Facts₀]

def dot_S64x4096x128_S64x128_S64x4096x64_2_1_01_0_n_n : DotDims S64x4096x128 S64x128 S64x4096x64 where
  lhsContracting := [2]
  rhsContracting := [1]
  lhsNonContracting := [0, 1]
  rhsNonContracting := [0]
  lhsBatch := []
  rhsBatch := []
  wf := dot_S64x4096x128_S64x128_S64x4096x64_2_1_01_0_n_n_wf
def dot_S64x4096x64_S64x4096x128_S64x64x128_1_1_2_2_0_0 : DotDims S64x4096x64 S64x4096x128 S64x64x128 where
  lhsContracting := [1]
  rhsContracting := [1]
  lhsNonContracting := [2]
  rhsNonContracting := [2]
  lhsBatch := [0]
  rhsBatch := [0]
  wf := dot_S64x4096x64_S64x4096x128_S64x64x128_1_1_2_2_0_0_wf

class Facts : Prop extends Facts₀ where

variable [Facts]
-- ==== Proof.Pieces.lean ====
/-
  What each kind of grid point leaves in the two accumulators and in the output block, as values of the point's input
  blocks (any float instance).

  A point of a batch's first tile (case A) clears both accumulators and then adds this tile's two partial sums into
  them; a middle tile (case B) adds its partial sums to what the point before left; the last tile (case C) does the
  same and then writes the normalised output block computed from the two accumulators it has just updated.  The two
  partial sums of a tile are functions of its token block, the transposed weights and the bias only:
    vladStep acc = acc + (softmax weights)ᵀ · (unit rows),    massStep acc = acc + (softmax weights)ᵀ · (all ones).
-/
import proofs.«177332_j58540404244567_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The weighted-sum accumulator after a tile: what it held plus the tile's (weights)ᵀ · (unit rows). -/
abbrev vladStep (x0 : Vec F S1x1024x128 .f32) (x1 : Vec F S128x64 .bf16) (x2 : Vec F S64 .f32) (acc : Vec F S64x128 .f32) :
    Vec F S64x128 .f32 := k0_pay7 x0 x1 x2 acc

/-- The weight-total accumulator after a tile: what it held plus the tile's (weights)ᵀ · (ones). -/
abbrev massStep (x0 : Vec F S1x1024x128 .f32) (x1 : Vec F S128x64 .bf16) (x2 : Vec F S64 .f32) (acc : Vec F S64x128 .f32) :
    Vec F S64x128 .f32 := k0_pay1 (k0_pay6 x0 x1 x2) (FloatOps.ofBits FTy.bf16 0x3F80#16) acc

/-- The output block from the two finished accumulators, the centroids and the four normalisation tables. -/
abbrev finish (va ma cen gam bet mu var : Vec F S64x128 .f32) : Vec F S1x64x128 .f32 := k0_pay2 va ma cen gam mu var bet

theorem vlad_A (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : cond0_0 i) (hc1 : ¬cond0_1 i) (x0 : Vec F S1x1024x128 .f32) (x1 : Vec F S128x64 .bf16) (x2 : Vec F S64 .f32) (x3 x4 x5 x6 x7 : Vec F S64x128 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = vladStep x0 x1 x2 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem mass_A (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : cond0_0 i) (hc1 : ¬cond0_1 i) (x0 : Vec F S1x1024x128 .f32) (x1 : Vec F S128x64 .bf16) (x2 : Vec F S64 .f32) (x3 x4 x5 x6 x7 : Vec F S64x128 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = massStep x0 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem vlad_B (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : ¬cond0_0 i) (hc1 : ¬cond0_1 i) (x0 : Vec F S1x1024x128 .f32) (x1 : Vec F S128x64 .bf16) (x2 : Vec F S64 .f32) (x3 x4 x5 x6 x7 : Vec F S64x128 .f32) (xs0 xs1 : Vec F S64x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = vladStep x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem mass_B (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : ¬cond0_0 i) (hc1 : ¬cond0_1 i) (x0 : Vec F S1x1024x128 .f32) (x1 : Vec F S128x64 .bf16) (x2 : Vec F S64 .f32) (x3 x4 x5 x6 x7 : Vec F S64x128 .f32) (xs0 xs1 : Vec F S64x128 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = massStep x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem vlad_C (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : ¬cond0_0 i) (hc1 : cond0_1 i) (x0 : Vec F S1x1024x128 .f32) (x1 : Vec F S128x64 .bf16) (x2 : Vec F S64 .f32) (x3 x4 x5 x6 x7 : Vec F S64x128 .f32) (xs0 xs1 : Vec F S64x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = vladStep x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem mass_C (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : ¬cond0_0 i) (hc1 : cond0_1 i) (x0 : Vec F S1x1024x128 .f32) (x1 : Vec F S128x64 .bf16) (x2 : Vec F S64 .f32) (x3 x4 x5 x6 x7 : Vec F S64x128 .f32) (xs0 xs1 : Vec F S64x128 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = massStep x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero (S := S64x128) hz2]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

theorem out_C (c : Dev nD) (i : grid0.Coords) (arg2 : Memref sig .tc .vmem S1x1024x128 .f32) (harg2 : arg2.IsWhole) (arg3 : Memref sig .tc .vmem S128x64 .bf16) (harg3 : arg3.IsWhole) (arg4 : Memref sig .tc .vmem S64 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S1x64x128 .f32) (harg10 : arg10.IsWhole) (arg11 : Memref sig .tc .vmem S64x128 .f32) (harg11 : arg11.IsWhole) (arg12 : Memref sig .tc .vmem S64x128 .f32) (harg12 : arg12.IsWhole) (hc0 : ¬cond0_0 i) (hc1 : cond0_1 i) (x0 : Vec F S1x1024x128 .f32) (x1 : Vec F S128x64 .bf16) (x2 : Vec F S64 .f32) (x3 x4 x5 x6 x7 : Vec F S64x128 .f32) (xs0 xs1 : Vec F S64x128 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = finish (vladStep x0 x1 x2 xs0) (massStep x0 x1 x2 xs1) x3 x4 x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero (S := S1x64x128) hz3]
  simp only [View.readAt_eq_ld, harg2.read_unread, harg3.read_unread, harg4.read_unread, harg5.read_unread, harg6.read_unread,
    harg7.read_unread, harg8.read_unread, harg9.read_unread, harg11.read_unread, harg12.read_unread,
    View.readCov_unit_zero (S := S64x128) _ hz2,
    View.ld_unit_zero (S := S1x1024x128) hz3, View.ld_unit_zero (S := S128x64) hz2, View.ld_unit_zero (S := S64) hz1,
    View.ld_unit_zero (S := S64x128) hz2]

end Cert.KernelIdeal.Pieces

end
-- ==== Proof.LibRowReduce.lean ====
/-
  A reduction along the rows of a matrix, read at a row: over axis 1 of an [a, b] array, the sum and the maximum at
  row r run over the b entries (r, k) of that row. General in the extents and the float format; these specialise the
  library's one-axis readings, which name the entries through the reduced index with the coordinate put back.
-/
import Idealize.ShloMosaic.PureOps.Ideal.Laws
import Idealize.ShloMosaic.PureOps.Reduce
import Idealize.ShloMosaic.Lib.ValueIdx

namespace Idealize.ShloMosaic.ValueIdx

/-- Row r with column k put back is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum over the columns, at row r, is the sum of that row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- A lane maximum over the columns, at row r, is the fold of max over that row's entries from the accumulator's value. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = Finset.fold max (Ideal.ofBits φ acc) (fun k : Fin b => src (ix2 r k)) Finset.univ := by
  refine (Ideal.multiReduction_maximumf_single src acc h hφ hacc (ix1 r)).trans ?_
  show Finset.fold max (Ideal.ofBits φ acc) (src ∘ h.lift (ix1 r)) (Finset.univ : Finset (Fin b)) = _
  exact congrArg (fun f => Finset.fold max (Ideal.ofBits φ acc) f (Finset.univ : Finset (Fin b)))
    (funext fun k => congrArg src (lift_row h r k))

end Idealize.ShloMosaic.ValueIdx
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.TileValues.lean ====
/-
  One tile of 1024 tokens, read entry by entry on the extended reals.

  From a tile's token block x0 : [1, 1024, 128], the transposed assignment weights x1 : [128, 64] and the bias
  x2 : [64] the kernel forms:  the unit rows (each row over its norm clipped at 1e-12; narrowing to bf16 is the identity
  here), the scores (unit rows times x1, plus the bias along every row), their softmax along the 64 clusters, and the
  two updates of its accumulators — the old contents plus (weights)ᵀ · (unit rows), and the old contents plus
  (weights)ᵀ · (ones), whose entry (k, d) is the total weight of cluster k whatever d, one being the unit of the
  product.  After the last tile the output block is the residual rows (weighted sums less totals times centroids)
  scaled to unit length and passed through the affine normalisation.
-/
import proofs.«177332_j58540404244567_1_alg».proof.Proof.Gen.KernelIdeal.Skeleton
import proofs.«177332_j58540404244567_1_alg».proof.Proof.LibRowReduce
import proofs.«177332_j58540404244567_1_alg».proof.Proof.LibColumns
import proofs.«177332_j58540404244567_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open Idealize.ShloMosaic Idealize.ShloMosaic.ValueIdx

namespace Cert.KernelIdeal.Tile

open Cert.KernelIdeal Cert.KernelIdeal.Gen

theorem sqrt_apply {s : Shape} {φ : FTy} (a : FVec Ideal s φ) (i : s.Idx) : sqrt a i = Ideal.sqrt (a i) := rfl
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl
theorem splat_apply {s : Shape} {φ : FTy} (b : BitVec φ.bits) (i : s.Idx) :
    broadcast s (Scalar.ofBits (F := Ideal) φ b) i = Ideal.ofBits φ b := rfl
/-- Narrowing to bf16 changes nothing on the extended reals. -/
theorem narrow_apply {s : Shape} (a : FVec Ideal s .f32) (h : FTy.bits .bf16 < FTy.bits .f32) (i : s.Idx) :
    @Eq EReal ((truncf .bf16 a h : FVec Ideal s .bf16) i) (a i) := rfl

/-- A tile's unit rows: row r of the block divided by its clipped norm. -/
theorem unit_tile (x0 : FVec Ideal S1x1024x128 .f32) (r : Fin 1024) (d : Fin 128) :
    @Eq EReal (k0_pay5 (F := Ideal) x0 (ix2 r d))
      (Ideal.div (x0 (ix3 (0 : Fin 1) r d))
          (max (Ideal.sqrt (∑ e : Fin 128, x0 (ix3 (0 : Fin 1) r e) * x0 (ix3 (0 : Fin 1) r e))) (Ideal.ofBits .f32 0x2B8CBCCC#32))) := by
  unfold k0_pay5
  refine (narrow_apply _ _ _).trans ((divf_apply _ _ _).trans ?_)
  refine congrArg₂ Ideal.div (shapeCast_1ab_ab_apply x0 _ r d) ?_
  refine (broadcastTo_a1_ab_apply _ _ r d).trans ?_
  refine (maximumf_apply _ _ _).trans (congrArg₂ max ((sqrt_apply _ _).trans (congrArg Ideal.sqrt ?_)) (splat_apply _ _))
  refine (shapeCast_a_a1_apply _ _ r 0).trans ?_
  refine (multiReduction_add_row _ _ _ _ _ r).trans ?_
  exact Finset.sum_congr rfl fun e _ =>
    (mulf_apply _ _ _).trans (congrArg₂ (· * ·) (shapeCast_1ab_ab_apply x0 _ r e) (shapeCast_1ab_ab_apply x0 _ r e))

/-! ## The products that contract the token axis: [1024, 64]ᵀ · [1024, 128] -/

/-- The left operand's column is the output's row, whatever the contraction index. -/
theorem rows_lhs_col (j : S64x128.Idx) (c : dot_S1024x64_S1024x128_S64x128_0_0_1_1_n_n.contr.Idx) : (dot_S1024x64_S1024x128_S64x128_0_0_1_1_n_n.lhsIdx j c 1).val = (j 0).val := by
  unfold DotDims.lhsIdx
  rw [dif_neg (show ¬(1 : Fin S1024x64.rank) ∈ dot_S1024x64_S1024x128_S64x128_0_0_1_1_n_n.lhsBatch by decide),
    dif_pos (show (1 : Fin S1024x64.rank) ∈ dot_S1024x64_S1024x128_S64x128_0_0_1_1_n_n.lhsNonContracting by decide)]
  rfl

/-- The right operand's column is the output's column, whatever the contraction index. -/
theorem rows_rhs_col (j : S64x128.Idx) (c : dot_S1024x64_S1024x128_S64x128_0_0_1_1_n_n.contr.Idx) : (dot_S1024x64_S1024x128_S64x128_0_0_1_1_n_n.rhsIdx j c 1).val = (j 1).val := by
  unfold DotDims.rhsIdx
  rw [dif_neg (show ¬(1 : Fin S1024x128.rank) ∈ dot_S1024x64_S1024x128_S64x128_0_0_1_1_n_n.rhsBatch by decide),
    dif_pos (show (1 : Fin S1024x128.rank) ∈ dot_S1024x64_S1024x128_S64x128_0_0_1_1_n_n.rhsNonContracting by decide)]
  rfl

/-- Into a zero accumulator, entry (k, d) of (l)ᵀ · r is the sum over the 1024 tokens t of l(t, k) · r(t, d). -/
theorem rowsProduct_apply {φ₁ φ₂ : FTy} (l : FVec Ideal S1024x64 φ₁) (r : FVec Ideal S1024x128 φ₂) (k : Fin 64) (d : Fin 128) :
    matmul dot_S1024x64_S1024x128_S64x128_0_0_1_1_n_n none l r (constant S64x128 .f32 0x00000000#32) (ix2 k d) = ∑ t : Fin 1024, l (ix2 t k) * r (ix2 t d) := by
  refine (Ideal.matmul_constant_zero_apply _ none l r (ix2 k d)).trans ?_
  rw [← Equiv.sum_comp (contrEquiv1 dot_S1024x64_S1024x128_S64x128_0_0_1_1_n_n 1024 rfl rfl).symm]
  refine Finset.sum_congr rfl fun t _ => ?_
  have ht := contrEquiv1_symm_val dot_S1024x64_S1024x128_S64x128_0_0_1_1_n_n 1024 rfl rfl t
  have el : dot_S1024x64_S1024x128_S64x128_0_0_1_1_n_n.lhsIdx (ix2 k d) ((contrEquiv1 dot_S1024x64_S1024x128_S64x128_0_0_1_1_n_n 1024 rfl rfl).symm t) = ix2 t k := funext fun a => Fin.ext (by
    match a with
    | ⟨0, _⟩ => exact (dot_S1024x64_S1024x128_S64x128_0_0_1_1_n_n.lhsIdx_val_of_single (cl := (0 : Fin 2)) rfl _ _).trans ht
    | ⟨1, _⟩ => exact rows_lhs_col _ _)
  have er : dot_S1024x64_S1024x128_S64x128_0_0_1_1_n_n.rhsIdx (ix2 k d) ((contrEquiv1 dot_S1024x64_S1024x128_S64x128_0_0_1_1_n_n 1024 rfl rfl).symm t) = ix2 t d := funext fun a => Fin.ext (by
    match a with
    | ⟨0, _⟩ => exact (dot_S1024x64_S1024x128_S64x128_0_0_1_1_n_n.rhsIdx_val_of_single (cr := (0 : Fin 2)) rfl _ _).trans ht
    | ⟨1, _⟩ => exact rows_rhs_col _ _)
  rw [el, er]

/-! ## The scores and their softmax -/

/-- The tile's scores: unit rows times the transposed weights, plus the bias along every row. -/
def logits (x0 : FVec Ideal S1x1024x128 .f32) (x1 : FVec Ideal S128x64 .bf16) (x2 : FVec Ideal S64 .f32) : FVec Ideal S1024x64 .f32 :=
  addf (matmul dot_S1024x128_S128x64_S1024x64_1_0_0_1_n_n none (k0_pay5 x0) (shapeCast S128x64 x1 shapeCasts_S128x64_S128x64)
      (constant S1024x64 .f32 0x00000000#32))
    (broadcastTo S1024x64 (shapeCast S1x64 x2 shapeCasts_S64_S1x64) broadcasts_S1x64_S1024x64)

theorem logits_apply (x0 : FVec Ideal S1x1024x128 .f32) (x1 : FVec Ideal S128x64 .bf16) (x2 : FVec Ideal S64 .f32)
    (r : Fin 1024) (k : Fin 64) :
    logits x0 x1 x2 (ix2 r k) = (∑ d : Fin 128, k0_pay5 (F := Ideal) x0 (ix2 r d) * x1 (ix2 d k)) + x2 (ix1 k) := by
  unfold logits
  refine (addf_apply _ _ _).trans (congrArg₂ (· + ·) ?_ ?_)
  · refine (matmul_plain_zero_apply _ rfl none _ _ r k).trans ?_
    exact Finset.sum_congr rfl fun d _ => congrArg (_ * ·) (congrFun (shapeCast_self x1 _) _)
  · exact (broadcastTo_1b_ab_apply _ _ r k).trans (shapeCast_a_1a_apply x2 _ 0 k)

/-- The row-wise softmax of a [1024, 64] array as the kernel writes it (maximum from minus infinity, shift, exponential,
    sum from zero, quotient). -/
def softmaxRows (L : FVec Ideal S1024x64 .f32) : FVec Ideal S1024x64 .bf16 :=
  truncf .bf16
    (divf
      (exp (subf L (broadcastTo S1024x64 (shapeCast S1024x1 (multiReduction .maximumf [1] S1024 L 0xFF800000#32 reduces_S1024x64_S1024 (.inl rfl) rfl) shapeCasts_S1024_S1024x1) broadcasts_S1024x1_S1024x64)))
      (broadcastTo S1024x64 (shapeCast S1024x1 (multiReduction .add [1] S1024
        (exp (subf L (broadcastTo S1024x64 (shapeCast S1024x1 (multiReduction .maximumf [1] S1024 L 0xFF800000#32 reduces_S1024x64_S1024 (.inl rfl) rfl) shapeCasts_S1024_S1024x1) broadcasts_S1024x1_S1024x64)))
        0x00000000#32 reduces_S1024x64_S1024 (.inl rfl) rfl) shapeCasts_S1024_S1024x1) broadcasts_S1024x1_S1024x64))
    bitsLt_bf16_f32

theorem weights_eq (x0 : FVec Ideal S1x1024x128 .f32) (x1 : FVec Ideal S128x64 .bf16) (x2 : FVec Ideal S64 .f32) :
    k0_pay6 (F := Ideal) x0 x1 x2 = softmaxRows (logits x0 x1 x2) := rfl

/-- The shifted exponential of a row's entry. -/
theorem shiftExp_apply (L : FVec Ideal S1024x64 .f32) (r : Fin 1024) (k : Fin 64) :
    exp (subf L (broadcastTo S1024x64 (shapeCast S1024x1 (multiReduction .maximumf [1] S1024 L 0xFF800000#32 reduces_S1024x64_S1024 (.inl rfl) rfl) shapeCasts_S1024_S1024x1) broadcasts_S1024x1_S1024x64)) (ix2 r k)
      = Ideal.exp (L (ix2 r k) - Finset.fold max (Ideal.ofBits .f32 0xFF800000#32) (fun k' : Fin 64 => L (ix2 r k')) Finset.univ) := by
  refine (exp_apply _ _).trans (congrArg Ideal.exp ((subf_apply _ _ _).trans (congrArg (L (ix2 r k) - ·) ?_)))
  refine (broadcastTo_a1_ab_apply _ _ r k).trans ((shapeCast_a_a1_apply _ _ r 0).trans ?_)
  exact multiReduction_maximumf_row L _ _ _ _ r

theorem softmaxRows_apply (L : FVec Ideal S1024x64 .f32) (r : Fin 1024) (k : Fin 64) :
    @Eq EReal (softmaxRows L (ix2 r k))
      (Ideal.div (Ideal.exp (L (ix2 r k) - Finset.fold max (Ideal.ofBits .f32 0xFF800000#32) (fun k' : Fin 64 => L (ix2 r k')) Finset.univ))
        (∑ k'' : Fin 64, Ideal.exp (L (ix2 r k'') - Finset.fold max (Ideal.ofBits .f32 0xFF800000#32) (fun k' : Fin 64 => L (ix2 r k')) Finset.univ))) := by
  unfold softmaxRows
  refine (narrow_apply _ _ _).trans ((divf_apply _ _ _).trans (congrArg₂ Ideal.div (shiftExp_apply L r k) ?_))
  refine (broadcastTo_a1_ab_apply _ _ r k).trans ((shapeCast_a_a1_apply _ _ r 0).trans ?_)
  refine (multiReduction_add_row _ _ _ _ _ r).trans ?_
  exact Finset.sum_congr rfl fun k'' _ => shiftExp_apply L r k''

/-! ## The two accumulator updates and the finishing block -/

/-- The weighted-sum accumulator after a tile, at (k, d). -/
theorem vladStep_apply (x0 : FVec Ideal S1x1024x128 .f32) (x1 : FVec Ideal S128x64 .bf16) (x2 : FVec Ideal S64 .f32)
    (acc : FVec Ideal S64x128 .f32) (k : Fin 64) (d : Fin 128) :
    k0_pay7 (F := Ideal) x0 x1 x2 acc (ix2 k d)
      = acc (ix2 k d) + ∑ t : Fin 1024, (k0_pay6 (F := Ideal) x0 x1 x2 (ix2 t k) : EReal) * (k0_pay5 (F := Ideal) x0 (ix2 t d) : EReal) := by
  unfold k0_pay7
  refine (congrFun (shapeCast_self _ _) _).trans ((addf_apply _ _ _).trans (congrArg (acc (ix2 k d) + ·) ?_))
  exact rowsProduct_apply _ _ k d

/-- The weight-total accumulator after a tile, at (k, d): the column total of the weights, whatever d. -/
theorem massStep_apply (v30 : FVec Ideal S1024x64 .bf16) (acc : FVec Ideal S64x128 .f32) (k : Fin 64) (d : Fin 128) :
    k0_pay1 (F := Ideal) v30 (FloatOps.ofBits FTy.bf16 0x3F80#16) acc (ix2 k d)
      = acc (ix2 k d) + ∑ t : Fin 1024, (v30 (ix2 t k) : EReal) := by
  unfold k0_pay1
  refine (congrFun (shapeCast_self _ _) _).trans ((addf_apply _ _ _).trans (congrArg (acc (ix2 k d) + ·) ?_))
  refine (rowsProduct_apply _ _ k d).trans (Finset.sum_congr rfl fun t _ => ?_)
  show (v30 (ix2 t k) : EReal) * Ideal.ofBits .bf16 0x3F80#16 = _
  rw [Ideal.ofBits_one_bf16, mul_one]

/-- The pooled residual against the centroid, from the two finished accumulators. -/
def residOf (va ma cen : FVec Ideal S64x128 .f32) (k : Fin 64) (d : Fin 128) : EReal :=
  va (ix2 k d) - ma (ix2 k d) * cen (ix2 k d)

/-- The output block at (k, d): the residual row scaled to unit length (norm clipped), then the affine normalisation. -/
theorem finish_apply (va ma cen gam mu var bet : FVec Ideal S64x128 .f32) (u : Fin 1) (k : Fin 64) (d : Fin 128) :
    k0_pay2 (F := Ideal) va ma cen gam mu var bet (ix3 u k d)
      = gam (ix2 k d)
          * (Ideal.div (residOf va ma cen k d)
              (max (Ideal.sqrt (∑ e : Fin 128, residOf va ma cen k e * residOf va ma cen k e)) (Ideal.ofBits .f32 0x2B8CBCCC#32))
             - mu (ix2 k d))
          * Ideal.rsqrt (var (ix2 k d) + Ideal.ofBits .f32 0x3727C5AC#32)
        + bet (ix2 k d) := by
  unfold k0_pay2
  refine (shapeCast_ab_1ab_apply _ _ u k d).trans ?_
  refine (addf_apply _ _ _).trans (congrArg₂ (· + ·) ?_ (congrFun (shapeCast_self bet _) _))
  refine (mulf_apply _ _ _).trans (congrArg₂ (· * ·) ?_ ?_)
  · refine (mulf_apply _ _ _).trans (congrArg₂ (· * ·) (congrFun (shapeCast_self gam _) _) ?_)
    refine (subf_apply _ _ _).trans (congrArg₂ (· - ·) ?_ (congrFun (shapeCast_self mu _) _))
    refine (divf_apply _ _ _).trans (congrArg₂ Ideal.div rfl ?_)
    refine (broadcastTo_a1_ab_apply _ _ k d).trans ?_
    refine (maximumf_apply _ _ _).trans (congrArg₂ max ((sqrt_apply _ _).trans (congrArg Ideal.sqrt ?_)) (splat_apply _ _))
    refine (shapeCast_a_a1_apply _ _ k 0).trans ?_
    refine (multiReduction_add_row _ _ _ _ _ k).trans ?_
    exact Finset.sum_congr rfl fun e _ => rfl
  · refine (rsqrt_apply _ _).trans (congrArg Ideal.rsqrt ?_)
    exact (addf_apply _ _ _).trans (congrArg₂ (· + ·) (congrFun (shapeCast_self var _) _) (splat_apply _ _))

end Cert.KernelIdeal.Tile

end
-- ==== Proof.Pooling.lean ====
/-
  The pooled descriptor both programs compute, as one function of the eight argument arrays, entry by entry, on the
  extended reals.

  For a batch b, a token l and a feature d:  the token's row of x is scaled to unit length (its norm clipped below
  at 1e-12); its score against cluster k is the scaled row's inner product with row k of the assignment weights,
  plus bias k; the scores of a token become weights by a softmax over the 64 clusters (scores shifted by their
  maximum, exponentiated, divided by their sum).  Cluster k then pools, over the 4096 tokens, the weighted sum of
  the scaled rows, less the weights' total times the centroid's row k.  Each pooled row is scaled to unit length
  again (same clip), and the 64 x 128 rows, laid side by side as one row of 8192 entries, pass through an affine
  normalisation with per-entry scale, shift, mean and variance (variance + 1e-5 under a reciprocal square root).

  The only law used later about sums is that a sum over 4096 tokens is the sum of its four runs of 1024 tokens
  (sum_tiles): addition of extended reals is commutative and associative, so no entry need be finite.
-/
import Idealize.ShloMosaic.PureOps.Ideal
import Idealize.ShloMosaic.Lib.ValueIdx
import Mathlib.Algebra.BigOperators.Fin

noncomputable section

namespace Cert.Pooling

open Idealize.ShloMosaic Idealize.ShloMosaic.ValueIdx

/-- The token array x : [64, 4096, 128]. -/
abbrev Tokens := (⟨3, ![64, 4096, 128]⟩ : Shape).Idx → EReal
/-- A [64, 128] table: the assignment weights, the centroids. -/
abbrev Table := (⟨2, ![64, 128]⟩ : Shape).Idx → EReal
/-- The 64 assignment biases. -/
abbrev Bias := (⟨1, ![64]⟩ : Shape).Idx → EReal
/-- A flat per-entry parameter of the final normalisation: [8192]. -/
abbrev Flat := (⟨1, ![8192]⟩ : Shape).Idx → EReal

/-- The clip under both norms (the f32 nearest 1e-12). -/
def clip : EReal := Ideal.ofBits .f32 0x2B8CBCCC#32
/-- The variance offset (the f32 nearest 1e-5). -/
def varEps : EReal := Ideal.ofBits .f32 0x3727C5AC#32
/-- The value the running maximum starts from (the f32 pattern of minus infinity). -/
def floorVal : EReal := Ideal.ofBits .f32 0xFF800000#32

variable (x : Tokens) (w : Table) (ab : Bias) (cen : Table) (gam bet mu var : Flat)

/-- The clipped norm of token (b, l). -/
def rowNorm (b : Fin 64) (l : Fin 4096) : EReal :=
  max (Ideal.sqrt (∑ d : Fin 128, x (ix3 b l d) * x (ix3 b l d))) clip

/-- The token's row scaled to unit length. -/
def unitRow (b : Fin 64) (l : Fin 4096) (d : Fin 128) : EReal :=
  Ideal.div (x (ix3 b l d)) (rowNorm x b l)

/-- The score of token (b, l) against cluster k. -/
def score (b : Fin 64) (l : Fin 4096) (k : Fin 64) : EReal :=
  (∑ d : Fin 128, unitRow x b l d * w (ix2 k d)) + ab (ix1 k)

/-- The largest score of the token. -/
def top (b : Fin 64) (l : Fin 4096) : EReal :=
  Finset.fold max floorVal (fun k : Fin 64 => score x w ab b l k) Finset.univ

/-- The shifted score, exponentiated. -/
def expo (b : Fin 64) (l : Fin 4096) (k : Fin 64) : EReal :=
  Ideal.exp (score x w ab b l k - top x w ab b l)

/-- The softmax weight of cluster k for token (b, l). -/
def weight (b : Fin 64) (l : Fin 4096) (k : Fin 64) : EReal :=
  Ideal.div (expo x w ab b l k) (∑ k' : Fin 64, expo x w ab b l k')

/-- Cluster k's weighted sum of the unit rows of batch b, at feature d. -/
def pooled (b : Fin 64) (k : Fin 64) (d : Fin 128) : EReal :=
  ∑ l : Fin 4096, weight x w ab b l k * unitRow x b l d

/-- Cluster k's total weight in batch b. -/
def mass (b : Fin 64) (k : Fin 64) : EReal :=
  ∑ l : Fin 4096, weight x w ab b l k

/-- The pooled residual against the centroid. -/
def resid (b : Fin 64) (k : Fin 64) (d : Fin 128) : EReal :=
  pooled x w ab b k d - mass x w ab b k * cen (ix2 k d)

/-- The clipped norm of residual row (b, k). -/
def residNorm (b : Fin 64) (k : Fin 64) : EReal :=
  max (Ideal.sqrt (∑ d : Fin 128, resid x w ab cen b k d * resid x w ab cen b k d)) clip

/-- Flat position j of the 8192 lies in cluster j / 128 ... -/
def clusterOf (j : Fin 8192) : Fin 64 := ⟨j.val / 128, by have := j.isLt; omega⟩
/-- ... at feature j % 128. -/
def featureOf (j : Fin 8192) : Fin 128 := ⟨j.val % 128, Nat.mod_lt _ (by decide)⟩
/-- Entry (k, d) of a [64, 128] table sits at flat position 128 k + d. -/
def flatPos (k : Fin 64) (d : Fin 128) : Fin 8192 := ⟨k.val * 128 + d.val, by have := k.isLt; have := d.isLt; omega⟩

theorem clusterOf_flatPos (k : Fin 64) (d : Fin 128) : clusterOf (flatPos k d) = k := by
  apply Fin.ext; show (k.val * 128 + d.val) / 128 = k.val; have := d.isLt; omega
theorem featureOf_flatPos (k : Fin 64) (d : Fin 128) : featureOf (flatPos k d) = d := by
  apply Fin.ext; show (k.val * 128 + d.val) % 128 = d.val; have := d.isLt; omega

/-- The result at batch b, flat position j: the unit residual, normalised entry by entry. -/
def outAt (b : Fin 64) (j : Fin 8192) : EReal :=
  gam (ix1 j) * (Ideal.div (resid x w ab cen b (clusterOf j) (featureOf j)) (residNorm x w ab cen b (clusterOf j)) - mu (ix1 j))
    * Ideal.rsqrt (var (ix1 j) + varEps) + bet (ix1 j)

/-- The whole result array [64, 8192]. -/
def result : (⟨2, ![64, 8192]⟩ : Shape).Idx → EReal :=
  fun i => outAt x w ab cen gam bet mu var ⟨(i 0).val, idx2_lt0 i⟩ ⟨(i 1).val, idx2_lt1 i⟩

/-- Token number 1024 t + r of the 4096: row r of run t. -/
def tokenOf (t : Fin 4) (r : Fin 1024) : Fin 4096 := ⟨t.val * 1024 + r.val, by have := t.isLt; have := r.isLt; omega⟩

/-- A sum over the 4096 tokens is the sum over the four runs of the sums over each run's 1024 tokens. -/
theorem sum_tiles {M : Type*} [AddCommMonoid M] (f : Fin 4096 → M) :
    ∑ l : Fin 4096, f l = ∑ t : Fin 4, ∑ r : Fin 1024, f (tokenOf t r) := by
  rw [← Fintype.sum_prod_type' (f := fun t r => f (tokenOf t r))]
  rw [← (finProdFinEquiv (m := 4) (n := 1024)).sum_comp (fun l : Fin (4 * 1024) => f l)]
  refine Finset.sum_congr rfl fun p _ => congrArg f (Fin.ext ?_)
  show p.2.val + 1024 * p.1.val = p.1.val * 1024 + p.2.val
  omega

end Cert.Pooling

end
-- ==== Proof.TileSpec.lean ====
/-
  A tile's values are the specification's quantities, once its blocks are read off the argument arrays.

  If a token block holds rows 1024 t .. 1024 t + 1023 of batch b of x, the weight block the transposed assignment
  weights and the bias block the biases, then the tile's unit rows and softmax weights are the specification's
  unitRow and weight at those tokens; and if the two accumulators hold the pooled sums and the weight totals of batch b,
  the finishing block is the specification's result at (b, 128 k + d).
-/
import proofs.«177332_j58540404244567_1_alg».proof.Proof.TileValues
import proofs.«177332_j58540404244567_1_alg».proof.Proof.Pooling

noncomputable section

open Idealize.ShloMosaic Idealize.ShloMosaic.ValueIdx

namespace Cert.KernelIdeal.TileSpec

open Cert.KernelIdeal Cert.KernelIdeal.Gen Cert.KernelIdeal.Tile Cert.Pooling

variable (x : Tokens) (w : Cert.Pooling.Table) (ab : Bias) (cen : Cert.Pooling.Table) (gam bet mu var : Flat)
variable (x0 : FVec Ideal S1x1024x128 .f32) (x1 : FVec Ideal S128x64 .bf16) (x2 : FVec Ideal S64 .f32)
variable (b : Fin 64) (t : Fin 4)

/-- The tile's unit rows are the specification's. -/
theorem unit_eq (hx : ∀ r d, x0 (ix3 (0 : Fin 1) r d) = x (ix3 b (tokenOf t r) d)) (r : Fin 1024) (d : Fin 128) :
    @Eq EReal (k0_pay5 (F := Ideal) x0 (ix2 r d)) (unitRow x b (tokenOf t r) d) := by
  rw [unit_tile]
  simp only [hx]
  rfl

/-- The tile's scores are the specification's. -/
theorem score_eq (hx : ∀ r d, x0 (ix3 (0 : Fin 1) r d) = x (ix3 b (tokenOf t r) d))
    (hw : ∀ d k, @Eq EReal (x1 (ix2 d k)) (w (ix2 k d))) (hb : ∀ k, x2 (ix1 k) = ab (ix1 k)) (r : Fin 1024) (k : Fin 64) :
    logits x0 x1 x2 (ix2 r k) = score x w ab b (tokenOf t r) k := by
  rw [logits_apply, hb]
  unfold score
  refine congrArg (· + ab (ix1 k)) (Finset.sum_congr rfl fun d _ => ?_)
  rw [unit_eq x x0 b t hx r d]
  exact congrArg (unitRow x b (tokenOf t r) d * ·) (hw d k)

/-- The tile's softmax weights are the specification's. -/
theorem weight_eq (hx : ∀ r d, x0 (ix3 (0 : Fin 1) r d) = x (ix3 b (tokenOf t r) d))
    (hw : ∀ d k, @Eq EReal (x1 (ix2 d k)) (w (ix2 k d))) (hb : ∀ k, x2 (ix1 k) = ab (ix1 k)) (r : Fin 1024) (k : Fin 64) :
    @Eq EReal (k0_pay6 (F := Ideal) x0 x1 x2 (ix2 r k)) (weight x w ab b (tokenOf t r) k) := by
  rw [weights_eq, softmaxRows_apply]
  simp only [score_eq x w ab x0 x1 x2 b t hx hw hb]
  rfl

/-- The finishing block is the specification's result at flat position 128 k + d of batch b. -/
theorem finish_eq (va ma cb gb mb vb bb : FVec Ideal S64x128 .f32)
    (hva : ∀ k d, va (ix2 k d) = pooled x w ab b k d) (hma : ∀ k d, ma (ix2 k d) = mass x w ab b k)
    (hcen : ∀ k d, cb (ix2 k d) = cen (ix2 k d)) (hgam : ∀ k d, gb (ix2 k d) = gam (ix1 (flatPos k d)))
    (hmu : ∀ k d, mb (ix2 k d) = mu (ix1 (flatPos k d))) (hvar : ∀ k d, vb (ix2 k d) = var (ix1 (flatPos k d)))
    (hbet : ∀ k d, bb (ix2 k d) = bet (ix1 (flatPos k d))) (u : Fin 1) (k : Fin 64) (d : Fin 128) :
    k0_pay2 (F := Ideal) va ma cb gb mb vb bb (ix3 u k d) = outAt x w ab cen gam bet mu var b (flatPos k d) := by
  have hres : ∀ e, residOf va ma cb k e = resid x w ab cen b k e := fun e => by
    unfold residOf resid; rw [hva, hma, hcen]
  rw [finish_apply, hgam, hmu, hvar, hbet]
  simp only [hres]
  unfold outAt residNorm
  rw [clusterOf_flatPos, featureOf_flatPos]
  rfl

end Cert.KernelIdeal.TileSpec

end
-- ==== Proof.Accumulate.lean ====
/-
  The two accumulators after every grid point, and the output block of a batch's last tile.

  Grid point n works on batch n / 4 and tile n % 4.  The weighted-sum accumulator is cleared at a batch's first tile and
  every tile adds its partial sum, so after point n it holds the sum of the partial sums of tiles 0 .. n % 4 of batch
  n / 4 (a running sum restarted every fourth step: run, run_eq); the weight-total accumulator likewise.  At a batch's
  last tile the four partial sums make up, by the regrouping of a sum over 4096 tokens into four runs of 1024, the
  specification's pooled sums and weight totals, and the block written there is the specification's result for the batch.
-/
import proofs.«177332_j58540404244567_1_alg».proof.Proof.Pieces
import proofs.«177332_j58540404244567_1_alg».proof.Proof.TileSpec
import Idealize.ShloMosaic.Lib.Pipeline.Value

noncomputable section

open Idealize.ShloMosaic Idealize.ShloMosaic.TcCoe Idealize.SL.Sem Idealize.ShloMosaic.ValueIdx

namespace Cert.KernelIdeal.Accumulate

open Cert.KernelIdeal Cert.KernelIdeal.Gen Cert.KernelIdeal.Pieces Cert.KernelIdeal.Tile Cert.KernelIdeal.TileSpec Cert.Pooling

/-! ## A running sum restarted every fourth step -/

/-- The sum of f over the steps since the last multiple of four, that step included. -/
def run {M : Type*} [AddCommMonoid M] (f : ℕ → M) : ℕ → M
  | 0 => f 0
  | n + 1 => if (n + 1) % 4 = 0 then f (n + 1) else run f n + f (n + 1)

theorem run_eq {M : Type*} [AddCommMonoid M] (f : ℕ → M) :
    ∀ n, run f n = ∑ j ∈ Finset.range (n % 4 + 1), f (4 * (n / 4) + j)
  | 0 => by simp [run]
  | n + 1 => by
    rw [run]
    by_cases h : (n + 1) % 4 = 0
    · rw [if_pos h, h, Finset.sum_range_one]
      exact congrArg f (by omega)
    · rw [if_neg h, run_eq f n]
      have h1 : (n + 1) % 4 = n % 4 + 1 := by omega
      have h2 : (n + 1) / 4 = n / 4 := by omega
      rw [h1, h2, Finset.sum_range_succ _ (n % 4 + 1)]
      exact congrArg (_ + f ·) (by omega)

/-- At the fourth step of a group the running sum is the sum over the group's four steps. -/
theorem run_last {M : Type*} [AddCommMonoid M] (f : ℕ → M) (b : ℕ) : run f (4 * b + 3) = ∑ j : Fin 4, f (4 * b + j.val) := by
  rw [run_eq, show (4 * b + 3) % 4 + 1 = 4 by omega, show (4 * b + 3) / 4 = b by omega]
  exact Finset.sum_range fun j => f (4 * b + j)

/-! ## The cases of a grid point (any float instance) -/

section Points

variable {F : FTy → Type} [FloatOps F] (m : (ℓ : Loc nD τ sig) → Buf (Elt F) ℓ) (c : Dev nD)

theorem vlad_first (t : Fin cfg0.N) (h0 : t.val % 4 = 0) (h1 : ¬t.val % 4 = 3) :
    (outsAt0 m c t.val t.isLt).2.1 = vladStep (iblk m c 0 t) (iblk m c 1 t) (iblk m c 2 t) (k0_pay3 (F := F)) := by
  rw [outsAt0_A m c t h0 h1]
  exact vlad_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem mass_first (t : Fin cfg0.N) (h0 : t.val % 4 = 0) (h1 : ¬t.val % 4 = 3) :
    (outsAt0 m c t.val t.isLt).2.2 = massStep (iblk m c 0 t) (iblk m c 1 t) (iblk m c 2 t) (k0_pay4 (F := F)) := by
  rw [outsAt0_A m c t h0 h1]
  exact mass_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem vlad_middle (t : Fin cfg0.N) (h0 : ¬t.val % 4 = 0) (h1 : ¬t.val % 4 = 3) :
    (outsAt0 m c t.val t.isLt).2.1 = vladStep (iblk m c 0 t) (iblk m c 1 t) (iblk m c 2 t) (outsAt0 m c (t.val - 1) (Nat.lt_of_le_of_lt (Nat.sub_le _ _) t.isLt)).2.1 := by
  rw [outsAt0_B m c t h0 h1]
  exact vlad_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

theorem mass_middle (t : Fin cfg0.N) (h0 : ¬t.val % 4 = 0) (h1 : ¬t.val % 4 = 3) :
    (outsAt0 m c t.val t.isLt).2.2 = massStep (iblk m c 0 t) (iblk m c 1 t) (iblk m c 2 t) (outsAt0 m c (t.val - 1) (Nat.lt_of_le_of_lt (Nat.sub_le _ _) t.isLt)).2.2 := by
  rw [outsAt0_B m c t h0 h1]
  exact mass_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

theorem vlad_last (t : Fin cfg0.N) (h0 : ¬t.val % 4 = 0) (h1 : t.val % 4 = 3) :
    (outsAt0 m c t.val t.isLt).2.1 = vladStep (iblk m c 0 t) (iblk m c 1 t) (iblk m c 2 t) (outsAt0 m c (t.val - 1) (Nat.lt_of_le_of_lt (Nat.sub_le _ _) t.isLt)).2.1 := by
  rw [outsAt0_C m c t h0 h1]
  exact vlad_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

theorem mass_last (t : Fin cfg0.N) (h0 : ¬t.val % 4 = 0) (h1 : t.val % 4 = 3) :
    (outsAt0 m c t.val t.isLt).2.2 = massStep (iblk m c 0 t) (iblk m c 1 t) (iblk m c 2 t) (outsAt0 m c (t.val - 1) (Nat.lt_of_le_of_lt (Nat.sub_le _ _) t.isLt)).2.2 := by
  rw [outsAt0_C m c t h0 h1]
  exact mass_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

/-- At a batch's last tile the output block is computed from the accumulators as that point leaves them. -/
theorem out_last (t : Fin cfg0.N) (h0 : ¬t.val % 4 = 0) (h1 : t.val % 4 = 3) :
    (outsAt0 m c t.val t.isLt).1 = finish (outsAt0 m c t.val t.isLt).2.1 (outsAt0 m c t.val t.isLt).2.2
      (iblk m c 3 t) (iblk m c 4 t) (iblk m c 5 t) (iblk m c 6 t) (iblk m c 7 t) := by
  rw [vlad_last m c t h0 h1, mass_last m c t h0 h1, outsAt0_C m c t h0 h1]
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2

end Points

/-! ## The accumulators on the extended reals -/

section AtIdeal

variable (m : (ℓ : Loc nD τ sig) → Buf (Elt Ideal) ℓ) (c : Dev nD)

/-- The batch a grid point works on, -/
def batchOf (t : Fin cfg0.N) : Fin 64 :=
  ⟨t.val / 4, by have h : t.val < 256 := lt_of_lt_of_eq t.isLt (show cfg0.N = 256 from N_0); omega⟩
/-- and its tile of that batch's tokens. -/
def tileOf (t : Fin cfg0.N) : Fin 4 := ⟨t.val % 4, Nat.mod_lt _ (by decide)⟩

theorem point_lt (b : Fin 64) (j : Fin 4) : 4 * b.val + j.val < cfg0.N := by
  rw [show cfg0.N = 256 from N_0]; have := b.isLt; have := j.isLt; omega

/-- Tile n's partial weighted sum at (k, d) (zero past the grid). -/
def vladPart (k : Fin 64) (d : Fin 128) (n : ℕ) : EReal :=
  if h : n < cfg0.N then
    ∑ r : Fin 1024, (k0_pay6 (F := Ideal) (iblk m c 0 ⟨n, h⟩) (iblk m c 1 ⟨n, h⟩) (iblk m c 2 ⟨n, h⟩) (ix2 r k) : EReal)
      * (k0_pay5 (F := Ideal) (iblk m c 0 ⟨n, h⟩) (ix2 r d) : EReal)
  else 0

/-- Tile n's partial weight total of cluster k (zero past the grid). -/
def massPart (k : Fin 64) (n : ℕ) : EReal :=
  if h : n < cfg0.N then
    ∑ r : Fin 1024, (k0_pay6 (F := Ideal) (iblk m c 0 ⟨n, h⟩) (iblk m c 1 ⟨n, h⟩) (iblk m c 2 ⟨n, h⟩) (ix2 r k) : EReal)
  else 0

theorem cleared3 (k : Fin 64) (d : Fin 128) : k0_pay3 (F := Ideal) (ix2 k d) = 0 :=
  (congrFun (shapeCast_self _ _) _).trans ((splat_apply _ _).trans Ideal.ofBits_zero_f32)
theorem cleared4 (k : Fin 64) (d : Fin 128) : k0_pay4 (F := Ideal) (ix2 k d) = 0 :=
  (congrFun (shapeCast_self _ _) _).trans ((splat_apply _ _).trans Ideal.ofBits_zero_f32)

/-- After point n the accumulators hold the running sums of the tiles' partial sums, entry by entry. -/
theorem acc_eq (k : Fin 64) (d : Fin 128) : ∀ (n : ℕ) (hn : n < cfg0.N),
    (outsAt0 m c n hn).2.1 (ix2 k d) = run (vladPart m c k d) n ∧ (outsAt0 m c n hn).2.2 (ix2 k d) = run (massPart m c k) n
  | 0, hn => by
    have e0 := vlad_first m c ⟨0, hn⟩ rfl (by show ¬(0 : ℕ) % 4 = 3; decide)
    have e1 := mass_first m c ⟨0, hn⟩ rfl (by show ¬(0 : ℕ) % 4 = 3; decide)
    constructor
    · refine (congrFun e0 (ix2 k d)).trans ((vladStep_apply _ _ _ _ k d).trans ?_)
      rw [cleared3, zero_add]
      show _ = vladPart m c k d 0
      unfold vladPart; rw [dif_pos hn]
    · refine (congrFun e1 (ix2 k d)).trans ((massStep_apply _ _ k d).trans ?_)
      rw [cleared4, zero_add]
      show _ = massPart m c k 0
      unfold massPart; rw [dif_pos hn]
  | n + 1, hn => by
    obtain ⟨ih0, ih1⟩ := acc_eq k d n (Nat.lt_of_succ_lt hn)
    have hp0 : vladPart m c k d (n + 1) = ∑ r : Fin 1024, (k0_pay6 (F := Ideal) (iblk m c 0 ⟨n + 1, hn⟩) (iblk m c 1 ⟨n + 1, hn⟩) (iblk m c 2 ⟨n + 1, hn⟩) (ix2 r k) : EReal)
        * (k0_pay5 (F := Ideal) (iblk m c 0 ⟨n + 1, hn⟩) (ix2 r d) : EReal) := by unfold vladPart; rw [dif_pos hn]
    have hp1 : massPart m c k (n + 1) = ∑ r : Fin 1024, (k0_pay6 (F := Ideal) (iblk m c 0 ⟨n + 1, hn⟩) (iblk m c 1 ⟨n + 1, hn⟩) (iblk m c 2 ⟨n + 1, hn⟩) (ix2 r k) : EReal) := by
      unfold massPart; rw [dif_pos hn]
    by_cases h0 : (n + 1) % 4 = 0
    · have h1 : ¬(n + 1) % 4 = 3 := by omega
      have e0 := vlad_first m c ⟨n + 1, hn⟩ h0 h1
      have e1 := mass_first m c ⟨n + 1, hn⟩ h0 h1
      constructor
      · rw [run, if_pos h0, hp0]
        refine (congrFun e0 (ix2 k d)).trans ((vladStep_apply _ _ _ _ k d).trans ?_)
        rw [cleared3, zero_add]
      · rw [run, if_pos h0, hp1]
        refine (congrFun e1 (ix2 k d)).trans ((massStep_apply _ _ k d).trans ?_)
        rw [cleared4, zero_add]
    · by_cases h1 : (n + 1) % 4 = 3
      · have e0 := vlad_last m c ⟨n + 1, hn⟩ h0 h1
        have e1 := mass_last m c ⟨n + 1, hn⟩ h0 h1
        constructor
        · rw [run, if_neg h0, hp0]
          refine (congrFun e0 (ix2 k d)).trans ((vladStep_apply _ _ _ _ k d).trans ?_)
          exact congrArg (· + _) ih0
        · rw [run, if_neg h0, hp1]
          refine (congrFun e1 (ix2 k d)).trans ((massStep_apply _ _ k d).trans ?_)
          exact congrArg (· + _) ih1
      · have e0 := vlad_middle m c ⟨n + 1, hn⟩ h0 h1
        have e1 := mass_middle m c ⟨n + 1, hn⟩ h0 h1
        constructor
        · rw [run, if_neg h0, hp0]
          refine (congrFun e0 (ix2 k d)).trans ((vladStep_apply _ _ _ _ k d).trans ?_)
          exact congrArg (· + _) ih0
        · rw [run, if_neg h0, hp1]
          refine (congrFun e1 (ix2 k d)).trans ((massStep_apply _ _ k d).trans ?_)
          exact congrArg (· + _) ih1

variable (x : Tokens) (w : Cert.Pooling.Table) (ab : Bias) (cen : Cert.Pooling.Table) (gam bet mu var : Flat)

/-- The kernel's input blocks are read off the argument arrays: the token block of point t is rows
    1024 (t % 4) .. + 1023 of batch t / 4; the weight block is the transposed weights; the four normalisation tables
    are their flat arrays laid out 128 to a row. -/
structure Reads : Prop where
  tokens : ∀ (t : Fin cfg0.N) (r : Fin 1024) (d : Fin 128),
    (iblk m c 0 t : Vec Ideal S1x1024x128 .f32) (ix3 (0 : Fin 1) r d) = x (ix3 (batchOf t) (tokenOf (tileOf t) r) d)
  weights : ∀ (t : Fin cfg0.N) (d : Fin 128) (k : Fin 64), @Eq EReal ((iblk m c 1 t : Vec Ideal S128x64 .bf16) (ix2 d k)) (w (ix2 k d))
  bias : ∀ (t : Fin cfg0.N) (k : Fin 64), (iblk m c 2 t : Vec Ideal S64 .f32) (ix1 k) = ab (ix1 k)
  centroids : ∀ (t : Fin cfg0.N) (k : Fin 64) (d : Fin 128), (iblk m c 3 t : Vec Ideal S64x128 .f32) (ix2 k d) = cen (ix2 k d)
  scale : ∀ (t : Fin cfg0.N) (k : Fin 64) (d : Fin 128), (iblk m c 4 t : Vec Ideal S64x128 .f32) (ix2 k d) = gam (ix1 (flatPos k d))
  shift : ∀ (t : Fin cfg0.N) (k : Fin 64) (d : Fin 128), (iblk m c 5 t : Vec Ideal S64x128 .f32) (ix2 k d) = bet (ix1 (flatPos k d))
  mean : ∀ (t : Fin cfg0.N) (k : Fin 64) (d : Fin 128), (iblk m c 6 t : Vec Ideal S64x128 .f32) (ix2 k d) = mu (ix1 (flatPos k d))
  variance : ∀ (t : Fin cfg0.N) (k : Fin 64) (d : Fin 128), (iblk m c 7 t : Vec Ideal S64x128 .f32) (ix2 k d) = var (ix1 (flatPos k d))

variable {m c x w ab cen gam bet mu var}

/-- Tile j of batch b contributes the specification's weighted sum over its 1024 tokens, -/
theorem vladPart_eq (R : Reads m c x w ab cen gam bet mu var) (k : Fin 64) (d : Fin 128) (b : Fin 64) (j : Fin 4) :
    vladPart m c k d (4 * b.val + j.val) = ∑ r : Fin 1024, weight x w ab b (tokenOf j r) k * unitRow x b (tokenOf j r) d := by
  have hlt := point_lt b j
  unfold vladPart; rw [dif_pos hlt]
  have hb : batchOf ⟨4 * b.val + j.val, hlt⟩ = b := Fin.ext (by show (4 * b.val + j.val) / 4 = b.val; have := j.isLt; omega)
  have hj : tileOf ⟨4 * b.val + j.val, hlt⟩ = j := Fin.ext (by show (4 * b.val + j.val) % 4 = j.val; have := j.isLt; omega)
  have hx : ∀ r d, (iblk m c 0 ⟨4 * b.val + j.val, hlt⟩ : Vec Ideal S1x1024x128 .f32) (ix3 (0 : Fin 1) r d) = x (ix3 b (tokenOf j r) d) :=
    fun r d => by rw [R.tokens, hb, hj]
  exact Finset.sum_congr rfl fun r _ => congrArg₂ (· * ·)
    (weight_eq x w ab _ _ _ b j hx (R.weights _) (R.bias _) r k) (unit_eq x _ b j hx r d)

/-- and the specification's weight total over them. -/
theorem massPart_eq (R : Reads m c x w ab cen gam bet mu var) (k : Fin 64) (b : Fin 64) (j : Fin 4) :
    massPart m c k (4 * b.val + j.val) = ∑ r : Fin 1024, weight x w ab b (tokenOf j r) k := by
  have hlt := point_lt b j
  unfold massPart; rw [dif_pos hlt]
  have hb : batchOf ⟨4 * b.val + j.val, hlt⟩ = b := Fin.ext (by show (4 * b.val + j.val) / 4 = b.val; have := j.isLt; omega)
  have hj : tileOf ⟨4 * b.val + j.val, hlt⟩ = j := Fin.ext (by show (4 * b.val + j.val) % 4 = j.val; have := j.isLt; omega)
  have hx : ∀ r d, (iblk m c 0 ⟨4 * b.val + j.val, hlt⟩ : Vec Ideal S1x1024x128 .f32) (ix3 (0 : Fin 1) r d) = x (ix3 b (tokenOf j r) d) :=
    fun r d => by rw [R.tokens, hb, hj]
  exact Finset.sum_congr rfl fun r _ => weight_eq x w ab _ _ _ b j hx (R.weights _) (R.bias _) r k

/-- After a batch's last tile the first accumulator holds the specification's pooled sums, -/
theorem pooled_eq (R : Reads m c x w ab cen gam bet mu var) (t : Fin cfg0.N) (h1 : t.val % 4 = 3) (k : Fin 64) (d : Fin 128) :
    (outsAt0 m c t.val t.isLt).2.1 (ix2 k d) = pooled x w ab (batchOf t) k d := by
  rw [(acc_eq m c k d t.val t.isLt).1]
  have ht : t.val = 4 * (batchOf t).val + 3 := by show t.val = 4 * (t.val / 4) + 3; omega
  rw [ht, run_last]
  unfold pooled; rw [sum_tiles]
  exact Finset.sum_congr rfl fun j _ => vladPart_eq R k d (batchOf t) j

/-- and the second the specification's weight totals, whatever the column. -/
theorem mass_eq (R : Reads m c x w ab cen gam bet mu var) (t : Fin cfg0.N) (h1 : t.val % 4 = 3) (k : Fin 64) (d : Fin 128) :
    (outsAt0 m c t.val t.isLt).2.2 (ix2 k d) = mass x w ab (batchOf t) k := by
  rw [(acc_eq m c k d t.val t.isLt).2]
  have ht : t.val = 4 * (batchOf t).val + 3 := by show t.val = 4 * (t.val / 4) + 3; omega
  rw [ht, run_last]
  unfold mass; rw [sum_tiles]
  exact Finset.sum_congr rfl fun j _ => massPart_eq R k (batchOf t) j

/-- The block a batch's last tile writes is the specification's result for that batch, 128 entries to a row. -/
theorem block_eq (R : Reads m c x w ab cen gam bet mu var) (t : Fin cfg0.N) (h1 : t.val % 4 = 3) (u : Fin 1) (k : Fin 64) (d : Fin 128) :
    (outsAt0 m c t.val t.isLt).1 (ix3 u k d) = outAt x w ab cen gam bet mu var (batchOf t) (flatPos k d) := by
  have h0 : ¬t.val % 4 = 0 := by omega
  rw [out_last m c t h0 h1]
  exact finish_eq x w ab cen gam bet mu var (batchOf t) _ _ _ _ _ _ _ (pooled_eq R t h1) (mass_eq R t h1)
    (R.centroids t) (R.scale t) (R.mean t) (R.variance t) (R.shift t) u k d

end AtIdeal

end Cert.KernelIdeal.Accumulate

end
-- ==== Proof.Blocks.lean ====
/-
  The kernel's input blocks, read at coordinates: what each of the eight input windows holds at a grid point, as
  entries of the argument arrays. Grid point t is batch t / 4, run t % 4 of 1024 tokens; the token window's block is
  that run of that batch; every other window holds its whole array at every point — the assignment weights transposed
  (the change of float format is the identity on extended reals), the biases and centroids as they are, and the four
  flat normalisation parameters laid out as [64, 128] tables, entry (k, d) the flat entry 128 k + d.
-/
import proofs.«177332_j58540404244567_1_alg».proof.Proof.Gen.KernelIdeal.Frame
import proofs.«177332_j58540404244567_1_alg».proof.Proof.Pooling
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Cert.Pooling Idealize.ShloMosaic Idealize.ShloMosaic.TcCoe Idealize.SL.Sem
open Idealize.ShloMosaic.ValueIdx

variable (m : (ℓ : Loc nD τ sig) → Buf (Elt Ideal) ℓ)

/-- The grid has 256 points. -/
theorem point_lt (t : Fin cfg0.N) : t.val < 256 := lt_of_lt_of_eq t.isLt N_0

/-- The batch of grid point t. -/
def batchOf (t : Fin cfg0.N) : Fin 64 := ⟨t.val / 4, by have := point_lt t; omega⟩
/-- The run of 1024 tokens of grid point t. -/
def tileOf (t : Fin cfg0.N) : Fin 4 := ⟨t.val % 4, Nat.mod_lt _ (by decide)⟩

/-- The token window's block index at point t is (t / 4, t % 4, 0). -/
theorem index_tokens : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The token window at point t holds run t % 4 of batch t / 4: row r, feature d of the block is token 1024 (t % 4) + r. -/
theorem tokens_block (c : Dev nD) (t : Fin cfg0.N) (r : Fin 1024) (d : Fin 128) :
    (iblk m c 0 t : Vec Ideal S1x1024x128 .f32) (ix3 (0 : Fin 1) r d)
      = m ((c : Thread nD τ).loc main_arg0) (ix3 (batchOf t) (tokenOf (tileOf t) r) d) := by
  obtain ⟨e0, e1, e2⟩ := index_tokens t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 3) * 1 + 1 * 0 = t.val / 4; omega
  | ⟨1, _⟩ => show win0_0.index t (1 : Fin 3) * 1024 + 1 * r.val = t.val % 4 * 1024 + r.val; omega
  | ⟨2, _⟩ => show win0_0.index t (2 : Fin 3) * 128 + 1 * d.val = d.val; omega

/-- The window is always at block (0, 0). -/
theorem index_weights : ∀ t : Fin cfg0.N, win0_1.index t (0 : Fin 2) = 0 ∧ win0_1.index t (1 : Fin 2) = 0 :=
  (by decide +kernel : ∀ t : Fin grid0.N, _)

/-- When the region is entered the window's array is the assignment weights transposed, in the narrower float format. -/
theorem V_weights (c : Dev nD) : (V m c main_v1 : S128x64.Idx → EReal)
    = truncf (F := Ideal) .bf16 (transpose S128x64 [1, 0] (m ((c : Thread nD τ).loc main_arg1)) transposes_S64x128_S128x64_1_0)
        bitsLt_bf16_f32 := by
  show StableHlo.after hostOps0 (fun b => m (c, b)) (Proc.devRef .tc main_v1) = _
  after_results

/-- The weights window holds the assignment weights transposed: entry (d, k) is the weights' entry (k, d), the change
    of float format being the identity on extended reals. -/
theorem weights_block (c : Dev nD) (t : Fin cfg0.N) (d : Fin 128) (k : Fin 64) :
    (iblk m c 1 t : Vec Ideal S128x64 .bf16) (ix2 d k) = m ((c : Thread nD τ).loc main_arg1) (ix2 k d) := by
  obtain ⟨e0, e1⟩ := index_weights t
  unfold iblk
  rw [View.read_apply]
  show (V m c main_v1 : S128x64.Idx → EReal) _ = _
  rw [V_weights]
  refine Eq.trans (congrArg _ ?_)
    (transpose_ix2_apply (m ((c : Thread nD τ).loc main_arg1)) transposes_S64x128_S128x64_1_0 d k)
  funext a; apply Fin.ext
  match a with
  | ⟨0, _⟩ => show win0_1.index t (0 : Fin 2) * 128 + 1 * d.val = d.val; omega
  | ⟨1, _⟩ => show win0_1.index t (1 : Fin 2) * 64 + 1 * k.val = k.val; omega

/-- The window is always at block 0. -/
theorem index_bias : ∀ t : Fin cfg0.N, win0_2.index t (0 : Fin 1) = 0 :=
  (by decide +kernel : ∀ t : Fin grid0.N, _)

/-- The bias window holds the 64 biases at every point. -/
theorem bias_block (c : Dev nD) (t : Fin cfg0.N) (k : Fin 64) :
    (iblk m c 2 t : Vec Ideal S64 .f32) (ix1 k) = m ((c : Thread nD τ).loc main_arg2) (ix1 k) := by
  have e0 := index_bias t
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t (0 : Fin 1) * 64 + 1 * k.val = k.val; omega

/-- The window is always at block (0, 0). -/
theorem index_centroid : ∀ t : Fin cfg0.N, win0_3.index t (0 : Fin 2) = 0 ∧ win0_3.index t (1 : Fin 2) = 0 :=
  (by decide +kernel : ∀ t : Fin grid0.N, _)

/-- The centroid window holds the whole centroid table at every point. -/
theorem centroid_block (c : Dev nD) (t : Fin cfg0.N) (k : Fin 64) (d : Fin 128) :
    (iblk m c 3 t : Vec Ideal S64x128 .f32) (ix2 k d) = m ((c : Thread nD τ).loc main_arg3) (ix2 k d) := by
  obtain ⟨e0, e1⟩ := index_centroid t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t (0 : Fin 2) * 64 + 1 * k.val = k.val; omega
  | ⟨1, _⟩ => show win0_3.index t (1 : Fin 2) * 128 + 1 * d.val = d.val; omega

/-- A flat [8192] array laid out as a [64, 128] table: entry (k, d) is the flat entry 128 k + d. -/
theorem table_at (x : S8192.Idx → EReal) (h : S8192.ShapeCasts S64x128) (k : Fin 64) (d : Fin 128) :
    shapeCast S64x128 x h (ix2 k d) = x (ix1 (flatPos k d)) :=
  shapeCast_apply x h _ _ (by
    rw [Shape.rowMajor_val_one, Shape.rowMajor_val_two]
    rfl)

/-- The window is always at block (0, 0). -/
theorem index_gamma : ∀ t : Fin cfg0.N, win0_4.index t (0 : Fin 2) = 0 ∧ win0_4.index t (1 : Fin 2) = 0 :=
  (by decide +kernel : ∀ t : Fin grid0.N, _)

/-- When the region is entered the window's array is the flat parameter laid out as a [64, 128] table. -/
theorem V_gamma (c : Dev nD) : (V m c main_v2 : S64x128.Idx → EReal)
    = shapeCast S64x128 (m ((c : Thread nD τ).loc main_arg4)) shapeCasts_S8192_S64x128 := by
  show StableHlo.after hostOps0 (fun b => m (c, b)) (Proc.devRef .tc main_v2) = _
  after_results
  rfl

/-- The scale window holds the flat scale as a table: entry (k, d) is the flat entry 128 k + d. -/
theorem gamma_block (c : Dev nD) (t : Fin cfg0.N) (k : Fin 64) (d : Fin 128) :
    (iblk m c 4 t : Vec Ideal S64x128 .f32) (ix2 k d) = m ((c : Thread nD τ).loc main_arg4) (ix1 (flatPos k d)) := by
  obtain ⟨e0, e1⟩ := index_gamma t
  unfold iblk
  rw [View.read_apply]
  show (V m c main_v2 : S64x128.Idx → EReal) _ = _
  rw [V_gamma]
  refine Eq.trans (congrArg _ ?_) (table_at _ _ k d)
  funext a; apply Fin.ext
  match a with
  | ⟨0, _⟩ => show win0_4.index t (0 : Fin 2) * 64 + 1 * k.val = k.val; omega
  | ⟨1, _⟩ => show win0_4.index t (1 : Fin 2) * 128 + 1 * d.val = d.val; omega

/-- The window is always at block (0, 0). -/
theorem index_beta : ∀ t : Fin cfg0.N, win0_5.index t (0 : Fin 2) = 0 ∧ win0_5.index t (1 : Fin 2) = 0 :=
  (by decide +kernel : ∀ t : Fin grid0.N, _)

/-- When the region is entered the window's array is the flat parameter laid out as a [64, 128] table. -/
theorem V_beta (c : Dev nD) : (V m c main_v3 : S64x128.Idx → EReal)
    = shapeCast S64x128 (m ((c : Thread nD τ).loc main_arg5)) shapeCasts_S8192_S64x128 := by
  show StableHlo.after hostOps0 (fun b => m (c, b)) (Proc.devRef .tc main_v3) = _
  after_results
  rfl

/-- The shift window holds the flat shift as a table: entry (k, d) is the flat entry 128 k + d. -/
theorem beta_block (c : Dev nD) (t : Fin cfg0.N) (k : Fin 64) (d : Fin 128) :
    (iblk m c 5 t : Vec Ideal S64x128 .f32) (ix2 k d) = m ((c : Thread nD τ).loc main_arg5) (ix1 (flatPos k d)) := by
  obtain ⟨e0, e1⟩ := index_beta t
  unfold iblk
  rw [View.read_apply]
  show (V m c main_v3 : S64x128.Idx → EReal) _ = _
  rw [V_beta]
  refine Eq.trans (congrArg _ ?_) (table_at _ _ k d)
  funext a; apply Fin.ext
  match a with
  | ⟨0, _⟩ => show win0_5.index t (0 : Fin 2) * 64 + 1 * k.val = k.val; omega
  | ⟨1, _⟩ => show win0_5.index t (1 : Fin 2) * 128 + 1 * d.val = d.val; omega

/-- The window is always at block (0, 0). -/
theorem index_mean : ∀ t : Fin cfg0.N, win0_6.index t (0 : Fin 2) = 0 ∧ win0_6.index t (1 : Fin 2) = 0 :=
  (by decide +kernel : ∀ t : Fin grid0.N, _)

/-- When the region is entered the window's array is the flat parameter laid out as a [64, 128] table. -/
theorem V_mean (c : Dev nD) : (V m c main_v4 : S64x128.Idx → EReal)
    = shapeCast S64x128 (m ((c : Thread nD τ).loc main_arg6)) shapeCasts_S8192_S64x128 := by
  show StableHlo.after hostOps0 (fun b => m (c, b)) (Proc.devRef .tc main_v4) = _
  after_results
  rfl

/-- The mean window holds the flat mean as a table: entry (k, d) is the flat entry 128 k + d. -/
theorem mean_block (c : Dev nD) (t : Fin cfg0.N) (k : Fin 64) (d : Fin 128) :
    (iblk m c 6 t : Vec Ideal S64x128 .f32) (ix2 k d) = m ((c : Thread nD τ).loc main_arg6) (ix1 (flatPos k d)) := by
  obtain ⟨e0, e1⟩ := index_mean t
  unfold iblk
  rw [View.read_apply]
  show (V m c main_v4 : S64x128.Idx → EReal) _ = _
  rw [V_mean]
  refine Eq.trans (congrArg _ ?_) (table_at _ _ k d)
  funext a; apply Fin.ext
  match a with
  | ⟨0, _⟩ => show win0_6.index t (0 : Fin 2) * 64 + 1 * k.val = k.val; omega
  | ⟨1, _⟩ => show win0_6.index t (1 : Fin 2) * 128 + 1 * d.val = d.val; omega

/-- The window is always at block (0, 0). -/
theorem index_var : ∀ t : Fin cfg0.N, win0_7.index t (0 : Fin 2) = 0 ∧ win0_7.index t (1 : Fin 2) = 0 :=
  (by decide +kernel : ∀ t : Fin grid0.N, _)

/-- When the region is entered the window's array is the flat parameter laid out as a [64, 128] table. -/
theorem V_var (c : Dev nD) : (V m c main_v5 : S64x128.Idx → EReal)
    = shapeCast S64x128 (m ((c : Thread nD τ).loc main_arg7)) shapeCasts_S8192_S64x128 := by
  show StableHlo.after hostOps0 (fun b => m (c, b)) (Proc.devRef .tc main_v5) = _
  after_results
  rfl

/-- The variance window holds the flat variance as a table: entry (k, d) is the flat entry 128 k + d. -/
theorem var_block (c : Dev nD) (t : Fin cfg0.N) (k : Fin 64) (d : Fin 128) :
    (iblk m c 7 t : Vec Ideal S64x128 .f32) (ix2 k d) = m ((c : Thread nD τ).loc main_arg7) (ix1 (flatPos k d)) := by
  obtain ⟨e0, e1⟩ := index_var t
  unfold iblk
  rw [View.read_apply]
  show (V m c main_v5 : S64x128.Idx → EReal) _ = _
  rw [V_var]
  refine Eq.trans (congrArg _ ?_) (table_at _ _ k d)
  funext a; apply Fin.ext
  match a with
  | ⟨0, _⟩ => show win0_7.index t (0 : Fin 2) * 64 + 1 * k.val = k.val; omega
  | ⟨1, _⟩ => show win0_7.index t (1 : Fin 2) * 128 + 1 * d.val = d.val; omega

end Cert.KernelIdeal.Blocks

end
-- ==== Proof.OutArray.lean ====
/-
  The kernel's result array, opened: the output window's array [64, 64, 128] is written back one [1, 64, 128] block
  per batch, at the last of the batch's four grid points; those 64 blocks tile the array, so whatever single function
  of the array index every written block is a block of, the array ends holding that function. The one host operation
  after the region lays the array out as [64, 8192]: row b, flat position j is entry (b, j / 128, j % 128).
-/
import proofs.«177332_j58540404244567_1_alg».proof.Proof.Gen.KernelIdeal.Frame
import proofs.«177332_j58540404244567_1_alg».proof.Proof.Pooling
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.OutArray

open Cert.KernelIdeal Cert.KernelIdeal.Gen Cert.Pooling Idealize.ShloMosaic Idealize.ShloMosaic.TcCoe Idealize.SL.Sem
open Idealize.ShloMosaic.ValueIdx
open Idealize.ShloMosaic.Pipeline (Dat)

variable {F : FTy → Type} [FloatOps F] (m : (ℓ : Loc nD τ sig) → Buf (Elt F) ℓ) (ρ : Dev nD → PrngReg)

/-- The grid has 256 points. -/
theorem point_lt (t : Fin cfg0.N) : t.val < 256 := lt_of_lt_of_eq t.isLt N_0

/-- The output window's block index at point t is (t / 4, 0, 0). -/
theorem index_out : ∀ t : Fin cfg0.N, win0_8.index t (0 : Fin 3) = t.val / 4 ∧ win0_8.index t (1 : Fin 3) = 0
    ∧ win0_8.index t (2 : Fin 3) = 0 :=
  (by decide +kernel : ∀ t : Fin grid0.N, _)

/-- Entry j of point t's block sits in the array at (t / 4, j 1, j 2). -/
theorem emb_out (t : Fin cfg0.N) (j : S1x64x128.Idx) :
    ((((cfg0.win 8).blk t).view.emb j : S64x64x128.Idx) 0).val = t.val / 4
      ∧ ((((cfg0.win 8).blk t).view.emb j : S64x64x128.Idx) 1).val = (j 1).val
      ∧ ((((cfg0.win 8).blk t).view.emb j : S64x64x128.Idx) 2).val = (j 2).val := by
  obtain ⟨e0, e1, e2⟩ := index_out t
  have h0 : (j 0).val < 1 := (j 0).isLt
  refine ⟨?_, ?_, ?_⟩
  · show win0_8.index t (0 : Fin 3) * 1 + 1 * (j 0).val = t.val / 4; omega
  · show win0_8.index t (1 : Fin 3) * 64 + 1 * (j 1).val = (j 1).val; omega
  · show win0_8.index t (2 : Fin 3) * 128 + 1 * (j 2).val = (j 2).val; omega

/-- Point t's block of a function G of the array index, at entry j, is G at (t / 4, j 1, j 2). -/
theorem read_out (G : S64x64x128.Idx → Elt F .f32) (t : Fin cfg0.N) (j : S1x64x128.Idx) :
    ((cfg0.win 8).blk t).view.read (Elt F) G j
      = G (ix3 (⟨t.val / 4, by have := point_lt t; omega⟩ : Fin 64) (⟨(j 1).val, (j 1).isLt⟩ : Fin 64)
          (⟨(j 2).val, (j 2).isLt⟩ : Fin 128)) := by
  obtain ⟨h0, h1, h2⟩ := emb_out t j
  rw [View.read_apply]
  show G _ = _
  refine congrArg G ?_
  funext a; apply Fin.ext
  match a with
  | ⟨0, _⟩ => exact h0
  | ⟨1, _⟩ => exact h1
  | ⟨2, _⟩ => exact h2

/-- An index of the array is in point t's block iff each coordinate is in the block's range on its axis. -/
theorem mem_blk_out (t : Fin cfg0.N) (i : S64x64x128.Idx) :
    i ∈ ((cfg0.win 8).blk t).view.set ↔ ∀ a : Fin 3, win0_8.index t a * S1x64x128.size a ≤ (i a).val
      ∧ (i a).val < win0_8.index t a * S1x64x128.size a + S1x64x128.size a := by
  show i ∈ ((View.whole main_v6).slice (win0_8.rect t)).set ↔ _
  rw [View.set_slice_whole, Rect.mem_set_unit]
  exact Iff.rfl

/-- Every index of the array lies in the block of a point that writes back: index i in that of point 4 (i 0) + 3. -/
theorem cover_out (i : S64x64x128.Idx) :
    ∃ t : Fin cfg0.N, (cfg0.win 8).flush t = true ∧ i ∈ ((cfg0.win 8).blk t).view.set := by
  have hi0 : (i 0).val < 64 := (i 0).isLt
  have hi1 : (i 1).val < 64 := (i 1).isLt
  have hi2 : (i 2).val < 128 := (i 2).isLt
  have hlt : 4 * (i 0).val + 3 < cfg0.N := lt_of_lt_of_eq (by omega : 4 * (i 0).val + 3 < 256) N_0.symm
  refine ⟨⟨4 * (i 0).val + 3, hlt⟩, (flush0_8 _).2 (by show (4 * (i 0).val + 3) % 4 = 3; omega), ?_⟩
  rw [mem_blk_out]
  obtain ⟨e0, e1, e2⟩ := index_out ⟨4 * (i 0).val + 3, hlt⟩
  have e0' : win0_8.index ⟨4 * (i 0).val + 3, hlt⟩ (0 : Fin 3) = (4 * (i 0).val + 3) / 4 := e0
  intro a
  match a with
  | ⟨0, _⟩ =>
    show win0_8.index ⟨4 * (i 0).val + 3, hlt⟩ (0 : Fin 3) * 1 ≤ (i 0).val
      ∧ (i 0).val < win0_8.index ⟨4 * (i 0).val + 3, hlt⟩ (0 : Fin 3) * 1 + 1
    omega
  | ⟨1, _⟩ =>
    show win0_8.index ⟨4 * (i 0).val + 3, hlt⟩ (1 : Fin 3) * 64 ≤ (i 1).val
      ∧ (i 1).val < win0_8.index ⟨4 * (i 0).val + 3, hlt⟩ (1 : Fin 3) * 64 + 64
    omega
  | ⟨2, _⟩ =>
    show win0_8.index ⟨4 * (i 0).val + 3, hlt⟩ (2 : Fin 3) * 128 ≤ (i 2).val
      ∧ (i 2).val < win0_8.index ⟨4 * (i 0).val + 3, hlt⟩ (2 : Fin 3) * 128 + 128
    omega

/-- The array after the run: if every block written back is a block of G, the array is G. -/
theorem final_out (G : S64x64x128.Idx → Elt F .f32) (c : Dev nD)
    (hG : ∀ t : Fin cfg0.N, (cfg0.win 8).flush t = true →
      (dats m 0 c).flushed 8 t = ((cfg0.win 8).blk t).view.read (Elt F) G) :
    (dats m 0 c).arrAt 8 cfg0.N = G :=
  (dats m 0 c).arrAt_eq_of_cover 8 G hG cover_out

/-- The array laid out as [64, 8192]: row b, flat position j is entry (b, j / 128, j % 128). -/
theorem flat_out (G : S64x64x128.Idx → Elt F .f32) (b : Fin 64) (j : Fin 8192) :
    shapeCast S64x8192 G shapeCasts_S64x64x128_S64x8192 (ix2 b j) = G (ix3 b (clusterOf j) (featureOf j)) :=
  shapeCast_apply G shapeCasts_S64x64x128_S64x8192 _ _ (by
    rw [Shape.rowMajor_val_three, Shape.rowMajor_val_two]
    show (b.val * 64 + j.val / 128) * 128 + j.val % 128 = b.val * 8192 + j.val
    omega)

/-- After the host operation that follows the region, the result buffer holds the array laid out as [64, 8192]. -/
theorem tail_out (G : S64x64x128.Idx → Elt F .f32) (c : Dev nD) (hfin : (dats m 0 c).arrAt 8 cfg0.N = G) :
    Pipeline.afterTail₀ cfgs (dats m) 0 (V0 m) [hostOps1] c main_v7
      = shapeCast S64x8192 G shapeCasts_S64x64x128_S64x8192 := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v6) = G :=
    (Pipeline.withArrays_arr spec0 launch0.win.arr_inj c _ _ 8).trans hfin
  rw [hw]
  rfl

/-- The run, read: if on every core every block written back is a block of that core's function, the program ends with
    the result buffer holding that function laid out as [64, 8192], and the eight argument arrays as launched. -/
theorem run_out (Gc : Dev nD → S64x64x128.Idx → Elt F .f32)
    (hG : ∀ c t, (cfg0.win 8).flush t = true →
      (dats m 0 c).flushed 8 t = ((cfg0.win 8).blk t).view.read (Elt F) (Gc c)) :
    θ_run defs (onTc (τ := τ) (main (F := F))) ⟨m, fun _ => 0, ρ⟩ (fun r => ∀ c : Dev nD,
      r.2.mem ((c.tc : Thread nD τ).loc main_v7) = shapeCast S64x8192 (Gc c) shapeCasts_S64x64x128_S64x8192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v7 (Pipeline.mem_restRefs_of main_v7 (by decide) (by decide))).trans
        (tail_out m (Gc c) c (final_out m (Gc c) c (hG c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.OutArray

end
-- ==== Proof.KernelRun.lean ====
/-
  The kernel's run, read: its result array is the specification's result of the argument arrays.

  The input blocks are read off the arguments (the token block of a point is a run of 1024 rows of one batch; the
  other windows are whole tables, the weights transposed and the four normalisation tables laid out 128 to a row), so
  the block a batch's last tile writes back is that batch's 64 x 128 rows of the specification's result; the 64 blocks
  fill the [64, 64, 128] array, and the reshape after the region lays each batch's rows side by side: entry
  (b, 128 k + d) of the [64, 8192] result is entry (b, k, d).
-/
import proofs.«177332_j58540404244567_1_alg».proof.Proof.Accumulate
import proofs.«177332_j58540404244567_1_alg».proof.Proof.Blocks
import proofs.«177332_j58540404244567_1_alg».proof.Proof.OutArray

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Accumulate Cert.Pooling

variable (m : (ℓ : Loc nD τ sig) → Buf (Elt Ideal) ℓ) (ρ : Dev nD → PrngReg)

/-- The kernel's blocks are read off the argument arrays. -/
theorem reads (c : Dev nD) : Reads m c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) where
  tokens := fun t r d => Blocks.tokens_block m c t r d
  weights := fun t d k => Blocks.weights_block m c t d k
  bias := fun t k => Blocks.bias_block m c t k
  centroids := fun t k d => Blocks.centroid_block m c t k d
  scale := fun t k d => Blocks.gamma_block m c t k d
  shift := fun t k d => Blocks.beta_block m c t k d
  mean := fun t k d => Blocks.mean_block m c t k d
  variance := fun t k d => Blocks.var_block m c t k d

/-- The [64, 64, 128] array the region leaves: entry (b, k, d) is the specification's result at (b, 128 k + d). -/
def rows (c : Dev nD) : S64x64x128.Idx → EReal := fun i =>
  outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ⟨(i 0).val, (i 0).isLt⟩ (flatPos ⟨(i 1).val, (i 1).isLt⟩ ⟨(i 2).val, (i 2).isLt⟩)

/-- What a batch's last tile writes back is that batch's block of it. -/
theorem flushed_eq (c : Dev nD) (t : Fin cfg0.N) (hf : (cfg0.win 8).flush t = true) :
    (dats m 0 c).flushed 8 t = ((cfg0.win 8).blk t).view.read (Elt Ideal) (rows m c) := by
  have h1 : t.val % 4 = 3 := (flush0_8 t).mp hf
  show (cfg0.win 8).cut (grid0.coords t) ((dats m 0 c).after 8 t) = _
  rw [after0_8]
  funext j
  refine Eq.trans ?_ (OutArray.read_out (F := Ideal) (rows m c) t j).symm
  show (outsAt0 m c t.val t.isLt).1 j = _
  refine ((congrArg (outsAt0 m c t.val t.isLt).1 (eq_ix3 j)).trans (block_eq (reads m c) t h1 (j 0) (j 1) (j 2))).trans ?_
  rfl

/-- A flat position is the position of its cluster and feature. -/
theorem flatPos_split (j : Fin 8192) : flatPos (clusterOf j) (featureOf j) = j :=
  Fin.ext (by show j.val / 128 * 128 + j.val % 128 = j.val; omega)

/-- The reshaped array is the specification's result. -/
theorem result_eq (c : Dev nD) :
    shapeCast S64x8192 (rows m c) shapeCasts_S64x64x128_S64x8192 = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, j, rfl⟩ : ∃ (b : Fin 64) (j : Fin 8192), i = ix2 b j := ⟨i 0, i 1, eq_ix2 i⟩
  refine (OutArray.flat_out (F := Ideal) (rows m c) b j).trans ?_
  show outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (flatPos (clusterOf j) (featureOf j)) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b j
  rw [flatPos_split]

/-- THE RUN: every weakly fair execution of the kernel's program terminates with its result array at the
    specification's result of the arguments, the arguments unchanged. -/
theorem run : θ_run defs (onTc (τ := τ) (main (F := Ideal))) ⟨m, fun _ => 0, ρ⟩ (fun r => ∀ c : Dev nD,
      r.2.mem ((c.tc : Thread nD τ).loc main_v7) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m c), (h c).2⟩)
    (OutArray.run_out (F := Ideal) m ρ (rows m) (flushed_eq m))

end Cert.KernelIdeal.Result

end
-- ==== Proof.RefStages.lean ====
/-
  The reference program computes the pooled descriptor: each of its stages, read at explicit coordinates, is the
  corresponding quantity of the specification (the clipped norm of a token, the unit row, the score, the largest
  score, the exponentiated shifted score, the softmax weight, the pooled sum, the weights' total, the residual, the
  residual's clipped norm), and the last stretch — the [64, 64, 128] rows laid out as [64, 8192] and normalised entry
  by entry — is the result.
-/
import proofs.«177332_j58540404244567_1_alg».proof.Proof.Gen.ReferenceIdeal.Read
import proofs.«177332_j58540404244567_1_alg».proof.Proof.Pooling

noncomputable section

namespace Cert.RefStages

open Cert.ReferenceIdeal Cert.ReferenceIdeal.Gen Cert.ReferenceIdeal.Read Cert.Pooling
open Idealize.ShloMosaic Idealize.ShloMosaic.ValueIdx

/-- The token array as the program holds it. -/
abbrev Arr3 := (⟨S64x4096x128, .f32⟩ : BufTy).Contents (Elt Ideal)
/-- A [64, 128] table as the program holds it. -/
abbrev Arr2 := (⟨S64x128, .f32⟩ : BufTy).Contents (Elt Ideal)
/-- The 64 biases as the program holds them. -/
abbrev Arr1 := (⟨S64, .f32⟩ : BufTy).Contents (Elt Ideal)
/-- A flat [8192] parameter as the program holds it. -/
abbrev ArrF := (⟨S8192, .f32⟩ : BufTy).Contents (Elt Ideal)

/-- The sum of squares of token (b, l): the products summed from zero. -/
theorem sumsq_at (x0 : Arr3) (b : Fin 64) (l : Fin 4096) :
    val_main_call0_v1 (F := Ideal) x0 (ix2 b l) = ∑ d : Fin 128, x0 (ix3 b l d) * x0 (ix3 b l d) := by
  rw [val_main_call0_v1_apply, val_main_call0_cst_apply, Ideal.ofBits_def, Ideal.ofBits_zero_f32, zero_add]
  refine Finset.sum_congr rfl fun d _ => ?_
  have e : idx_main_call0_v1 (ix2 b l) d = ix3 b l d :=
    funext fun a => Fin.ext (by match a with | ⟨0, _⟩ => rfl | ⟨1, _⟩ => rfl | ⟨2, _⟩ => rfl)
  rw [e, val_main_call0_v0_apply, Ideal.mulf_def]

/-- The clipped norm of token (b, l), kept as a column. -/
theorem norm_at (x0 : Arr3) (b : Fin 64) (l : Fin 4096) :
    val_main_v2 (F := Ideal) x0 (ix3 b l (0 : Fin 1)) = rowNorm x0 b l := by
  rw [val_main_v2_apply, val_main_v0_apply, val_main_call0_v2_apply, val_main_v1_apply, val_main_cst_apply]
  have e : idx_main_call0_v2 (ix3 b l (0 : Fin 1)) = ix2 b l :=
    funext fun a => Fin.ext (by match a with | ⟨0, _⟩ => rfl | ⟨1, _⟩ => rfl)
  rw [e, sumsq_at, Ideal.maximumf_def, Ideal.hostUnary_sqrt_def, Ideal.ofBits_def]
  rfl

/-- The unit row of token (b, l) at feature d. -/
theorem unit_at (x0 : Arr3) (b : Fin 64) (l : Fin 4096) (d : Fin 128) :
    val_main_v4 (F := Ideal) x0 (ix3 b l d) = unitRow x0 b l d := by
  rw [val_main_v4_apply, val_main_v3_apply]
  have e : idx_main_v3 (ix3 b l d) = ix3 b l (0 : Fin 1) :=
    funext fun a => Fin.ext (by match a with | ⟨0, _⟩ => rfl | ⟨1, _⟩ => rfl | ⟨2, _⟩ => rfl)
  rw [e, norm_at, Ideal.hostDivf_def]
  rfl

/-- The score of token (b, l) against cluster k: the inner product with the weights' row k, plus bias k. -/
theorem score_at (x0 : Arr3) (x1 : Arr2) (x2 : Arr1) (b : Fin 64) (l : Fin 4096) (k : Fin 64) :
    val_main_v8 (F := Ideal) x0 x1 x2 (ix3 b l k) = score x0 x1 x2 b l k := by
  rw [val_main_v8_apply, val_main_v5_apply, val_main_v7_apply, val_main_v6_apply, Ideal.addf_def]
  unfold score
  refine congrArg₂ (· + ·) (Finset.sum_congr rfl fun d _ => ?_) (congrArg x2 ?_)
  · have el : lidx_main_v5 (ix3 b l k) d = ix3 b l d :=
      funext fun a => Fin.ext (by match a with | ⟨0, _⟩ => rfl | ⟨1, _⟩ => rfl | ⟨2, _⟩ => rfl)
    have er : ridx_main_v5 (ix3 b l k) d = ix2 k d :=
      funext fun a => Fin.ext (by match a with | ⟨0, _⟩ => rfl | ⟨1, _⟩ => rfl)
    rw [el, er, unit_at]
  · exact funext fun a => Fin.ext (by match a with | ⟨0, _⟩ => rfl)

/-- Token (b, l)'s reduced index with cluster k put back on the last axis is entry (b, l, k). -/
theorem lift_cluster (h : S64x4096x64.Reduces [2] S64x4096) (b : Fin 64) (l : Fin 4096)
    (k : Fin (S64x4096x64.size 2)) : h.lift (ix2 b l) k = ix3 b l (⟨k.val, k.isLt⟩ : Fin 64) := by
  funext c; apply Fin.ext
  fin_cases c <;> rfl

/-- The largest score of token (b, l): the running maximum over the 64 clusters from the floor value; the further
    maximum with the floor value changes nothing, the floor being below every running maximum that starts from it. -/
theorem top_at (x0 : Arr3) (x1 : Arr2) (x2 : Arr1) (b : Fin 64) (l : Fin 4096) :
    val_main_v11 (F := Ideal) x0 x1 x2 (ix2 b l) = top x0 x1 x2 b l := by
  rw [val_main_v11_apply, val_main_v10_apply, val_main_cst_1_apply, Ideal.maximumf_def, Ideal.ofBits_def]
  unfold val_main_v9
  have h : S64x4096x64.Reduces [2] S64x4096 := by decide
  rw [Host.reduce_eq_fold_single FloatOps.maximumf _ _ reducesTo_S64x4096x64_S64x4096_d2 h h_S_,
    val_main_cst_0_apply, Ideal.ofBits_def]
  have hf : (val_main_v8 (F := Ideal) x0 x1 x2 ∘ h.lift (ix2 b l)) = fun k : Fin 64 => score x0 x1 x2 b l k :=
    funext fun k => (congrArg (val_main_v8 (F := Ideal) x0 x1 x2) (lift_cluster h b l k)).trans (score_at x0 x1 x2 b l _)
  refine (max_eq_right ((Finset.le_fold_max _).2 (Or.inl le_rfl))).trans ?_
  exact congrArg (fun f => Finset.fold max (Ideal.ofBits .f32 0xFF800000#32) f (Finset.univ : Finset (Fin 64))) hf

/-- The shifted score of token (b, l) against cluster k, exponentiated. -/
theorem expo_at (x0 : Arr3) (x1 : Arr2) (x2 : Arr1) (b : Fin 64) (l : Fin 4096) (k : Fin 64) :
    val_main_v15 (F := Ideal) x0 x1 x2 (ix3 b l k) = expo x0 x1 x2 b l k := by
  rw [val_main_v15_apply, val_main_v14_apply, val_main_v13_apply, val_main_v12_apply, score_at]
  have e : idx_main_v12 (idx_main_v13 (ix3 b l k)) = ix2 b l := funext fun a => Fin.ext (by match a with | ⟨0, _⟩ => rfl | ⟨1, _⟩ => rfl)
  rw [e, top_at, Ideal.hostUnary_exp_def, Ideal.subf_def]
  rfl

/-- The sum of token (b, l)'s exponentiated shifted scores. -/
theorem exposum_at (x0 : Arr3) (x1 : Arr2) (x2 : Arr1) (b : Fin 64) (l : Fin 4096) :
    val_main_v16 (F := Ideal) x0 x1 x2 (ix2 b l) = ∑ k : Fin 64, expo x0 x1 x2 b l k := by
  rw [val_main_v16_apply, val_main_cst_2_apply, Ideal.ofBits_def, Ideal.ofBits_zero_f32, zero_add]
  refine Finset.sum_congr rfl fun k _ => ?_
  have e : idx_main_v16 (ix2 b l) k = ix3 b l k := funext fun a => Fin.ext (by match a with | ⟨0, _⟩ => rfl | ⟨1, _⟩ => rfl | ⟨2, _⟩ => rfl)
  rw [e, expo_at]

/-- The softmax weight of cluster k for token (b, l). -/
theorem weight_at (x0 : Arr3) (x1 : Arr2) (x2 : Arr1) (b : Fin 64) (l : Fin 4096) (k : Fin 64) :
    val_main_v19 (F := Ideal) x0 x1 x2 (ix3 b l k) = weight x0 x1 x2 b l k := by
  rw [val_main_v19_apply, val_main_v18_apply, val_main_v17_apply, expo_at]
  have e : idx_main_v17 (idx_main_v18 (ix3 b l k)) = ix2 b l := funext fun a => Fin.ext (by match a with | ⟨0, _⟩ => rfl | ⟨1, _⟩ => rfl)
  rw [e, exposum_at, Ideal.hostDivf_def]
  rfl

/-- Cluster k's weighted sum of batch b's unit rows at feature d: the contraction over the 4096 tokens. -/
theorem pooled_at (x0 : Arr3) (x1 : Arr2) (x2 : Arr1) (b : Fin 64) (k : Fin 64) (d : Fin 128) :
    val_main_v20 (F := Ideal) x0 x1 x2 (ix3 b k d) = pooled x0 x1 x2 b k d := by
  rw [val_main_v20_apply]
  unfold pooled
  refine Finset.sum_congr rfl fun l _ => ?_
  have el : lidx_main_v20 (ix3 b k d) l = ix3 b l k := funext fun a => Fin.ext (by match a with | ⟨0, _⟩ => rfl | ⟨1, _⟩ => rfl | ⟨2, _⟩ => rfl)
  have er : ridx_main_v20 (ix3 b k d) l = ix3 b l d := funext fun a => Fin.ext (by match a with | ⟨0, _⟩ => rfl | ⟨1, _⟩ => rfl | ⟨2, _⟩ => rfl)
  rw [el, er, weight_at, unit_at]

/-- Cluster k's total weight in batch b. -/
theorem mass_at (x0 : Arr3) (x1 : Arr2) (x2 : Arr1) (b : Fin 64) (k : Fin 64) :
    val_main_v21 (F := Ideal) x0 x1 x2 (ix2 b k) = mass x0 x1 x2 b k := by
  rw [val_main_v21_apply, val_main_cst_3_apply, Ideal.ofBits_def, Ideal.ofBits_zero_f32, zero_add]
  unfold mass
  refine Finset.sum_congr rfl fun l _ => ?_
  have e : idx_main_v21 (ix2 b k) l = ix3 b l k := funext fun a => Fin.ext (by match a with | ⟨0, _⟩ => rfl | ⟨1, _⟩ => rfl | ⟨2, _⟩ => rfl)
  rw [e, weight_at]

/-- The pooled residual against the centroid's row k. -/
theorem resid_at (x0 : Arr3) (x1 : Arr2) (x2 : Arr1) (x3 : Arr2) (b : Fin 64) (k : Fin 64) (d : Fin 128) :
    val_main_v27 (F := Ideal) x0 x1 x2 x3 (ix3 b k d) = resid x0 x1 x2 x3 b k d := by
  rw [val_main_v27_apply, val_main_v26_apply, val_main_v24_apply, val_main_v22_apply, val_main_v25_apply,
    val_main_v23_apply, pooled_at]
  have e1 : idx_main_v22 (idx_main_v24 (ix3 b k d)) = ix2 b k := funext fun a => Fin.ext (by match a with | ⟨0, _⟩ => rfl | ⟨1, _⟩ => rfl)
  have e2 : idx_main_v23 (idx_main_v25 (ix3 b k d)) = ix2 k d := funext fun a => Fin.ext (by match a with | ⟨0, _⟩ => rfl | ⟨1, _⟩ => rfl)
  rw [e1, e2, mass_at, Ideal.subf_def, Ideal.mulf_def]
  rfl

/-- The sum of squares of residual row (b, k). -/
theorem residsq_at (x0 : Arr3) (x1 : Arr2) (x2 : Arr1) (x3 : Arr2) (b : Fin 64) (k : Fin 64) :
    val_main_call1_v1 (F := Ideal) x0 x1 x2 x3 (ix2 b k)
      = ∑ d : Fin 128, resid x0 x1 x2 x3 b k d * resid x0 x1 x2 x3 b k d := by
  rw [val_main_call1_v1_apply, val_main_call1_cst_apply, Ideal.ofBits_def, Ideal.ofBits_zero_f32, zero_add]
  refine Finset.sum_congr rfl fun d _ => ?_
  have e : idx_main_call1_v1 (ix2 b k) d = ix3 b k d := funext fun a => Fin.ext (by match a with | ⟨0, _⟩ => rfl | ⟨1, _⟩ => rfl | ⟨2, _⟩ => rfl)
  rw [e, val_main_call1_v0_apply, resid_at, Ideal.mulf_def]

/-- The clipped norm of residual row (b, k), kept as a column. -/
theorem residNorm_at (x0 : Arr3) (x1 : Arr2) (x2 : Arr1) (x3 : Arr2) (b : Fin 64) (k : Fin 64) :
    val_main_v30 (F := Ideal) x0 x1 x2 x3 (ix3 b k (0 : Fin 1)) = residNorm x0 x1 x2 x3 b k := by
  rw [val_main_v30_apply, val_main_v28_apply, val_main_call1_v2_apply, val_main_v29_apply, val_main_cst_4_apply]
  have e : idx_main_call1_v2 (ix3 b k (0 : Fin 1)) = ix2 b k := funext fun a => Fin.ext (by match a with | ⟨0, _⟩ => rfl | ⟨1, _⟩ => rfl)
  rw [e, residsq_at, Ideal.maximumf_def, Ideal.hostUnary_sqrt_def, Ideal.ofBits_def]
  rfl

/-- The residual row (b, k) scaled to unit length, at feature d. -/
theorem unitResid_at (x0 : Arr3) (x1 : Arr2) (x2 : Arr1) (x3 : Arr2) (b : Fin 64) (k : Fin 64) (d : Fin 128) :
    val_main_v32 (F := Ideal) x0 x1 x2 x3 (ix3 b k d)
      = Ideal.div (resid x0 x1 x2 x3 b k d) (residNorm x0 x1 x2 x3 b k) := by
  rw [val_main_v32_apply, val_main_v31_apply, resid_at]
  have e : idx_main_v31 (ix3 b k d) = ix3 b k (0 : Fin 1) := funext fun a => Fin.ext (by match a with | ⟨0, _⟩ => rfl | ⟨1, _⟩ => rfl | ⟨2, _⟩ => rfl)
  rw [e, residNorm_at, Ideal.hostDivf_def]

/-- The 64 x 128 unit residual rows of batch b laid side by side: flat position j is cluster j / 128, feature j % 128. -/
theorem flat_at (x0 : Arr3) (x1 : Arr2) (x2 : Arr1) (x3 : Arr2) (b : Fin 64) (j : Fin 8192) :
    val_main_v33 (F := Ideal) x0 x1 x2 x3 (ix2 b j)
      = Ideal.div (resid x0 x1 x2 x3 b (clusterOf j) (featureOf j)) (residNorm x0 x1 x2 x3 b (clusterOf j)) := by
  rw [val_main_v33_apply]
  have e : idx_main_v33 (ix2 b j) = ix3 b (clusterOf j) (featureOf j) := funext fun a => Fin.ext (by
    have hb : b.val < 64 := b.isLt
    have hj : j.val < 8192 := j.isLt
    match a with
    | ⟨0, _⟩ => show (b.val * 8192 + j.val) / 8192 = b.val; omega
    | ⟨1, _⟩ => show (b.val * 8192 + j.val) / 128 % 64 = j.val / 128; omega
    | ⟨2, _⟩ => show (b.val * 8192 + j.val) % 128 = j.val % 128; omega)
  rw [e, unitResid_at]

/-- The result at batch b, flat position j: the affine normalisation of the flat unit residual. -/
theorem out_at (x0 : Arr3) (x1 : Arr2) (x2 : Arr1) (x3 : Arr2) (x4 x5 x6 x7 : ArrF) (b : Fin 64) (j : Fin 8192) :
    val_main_v48 (F := Ideal) x0 x1 x2 x3 x4 x5 x6 x7 (ix2 b j) = outAt x0 x1 x2 x3 x4 x5 x6 x7 b j := by
  rw [val_main_v48_apply, val_main_v45_apply, val_main_v39_apply, val_main_v36_apply, flat_at, val_main_v38_apply,
    val_main_v37_apply, val_main_v35_apply, val_main_v34_apply, val_main_v44_apply, val_main_v43_apply,
    val_main_v42_apply, val_main_v41_apply, val_main_v40_apply, val_main_cst_5_apply, val_main_v47_apply,
    val_main_v46_apply]
  have e4 : idx_main_v37 (idx_main_v38 (ix2 b j)) = ix1 j := funext fun a => Fin.ext (by match a with | ⟨0, _⟩ => rfl)
  have e5 : idx_main_v46 (idx_main_v47 (ix2 b j)) = ix1 j := funext fun a => Fin.ext (by match a with | ⟨0, _⟩ => rfl)
  have e6 : idx_main_v34 (idx_main_v35 (ix2 b j)) = ix1 j := funext fun a => Fin.ext (by match a with | ⟨0, _⟩ => rfl)
  have e7 : idx_main_v43 (idx_main_v44 (ix2 b j)) = ix1 j := funext fun a => Fin.ext (by match a with | ⟨0, _⟩ => rfl)
  rw [e4, e5, e6, e7, Ideal.addf_def, Ideal.mulf_def, Ideal.mulf_def, Ideal.subf_def, Ideal.hostUnary_rsqrt_def,
    Ideal.addf_def, Ideal.ofBits_def]
  rfl

/-- The reference program's result is the pooled descriptor of the specification, entry by entry. -/
theorem reference_eq (x0 : (⟨S64x4096x128, .f32⟩ : BufTy).Contents (Elt Ideal))
    (x1 : (⟨S64x128, .f32⟩ : BufTy).Contents (Elt Ideal)) (x2 : (⟨S64, .f32⟩ : BufTy).Contents (Elt Ideal))
    (x3 : (⟨S64x128, .f32⟩ : BufTy).Contents (Elt Ideal))
    (x4 x5 x6 x7 : (⟨S8192, .f32⟩ : BufTy).Contents (Elt Ideal)) :
    Cert.ReferenceIdeal.Read.val_main_v48 (F := Ideal) x0 x1 x2 x3 x4 x5 x6 x7
      = Cert.Pooling.result x0 x1 x2 x3 x4 x5 x6 x7 := by
  funext i
  obtain ⟨b, j, rfl⟩ : ∃ (b : Fin 64) (j : Fin 8192), i = ix2 b j := ⟨i 0, i 1, eq_ix2 i⟩
  rw [out_at]
  rfl

end Cert.RefStages

end
-- ==== Proof.lean ====
/-
  The kernel pools token descriptors as a NetVLAD layer does; the reference is the same layer written with whole-array
  operations.  Both compute, for x : [64, 4096, 128], the pooled and normalised descriptor [64, 8192] that
  Proof/Pooling.lean states entry by entry on the extended reals (Cert.Pooling.result).

  The kernel walks a 64 x 4 grid, 1024 tokens at a time: per tile it forms the unit rows, the scores against the 64
  clusters, their softmax, and adds (weights)ᵀ·(unit rows) and (weights)ᵀ·(ones) into two accumulators it clears at a
  batch's first tile; at the batch's last tile it subtracts totals times centroids, scales each row to unit length and
  applies the affine normalisation.  Against the reference the differences are a sum over 4096 tokens taken as four
  runs of 1024 (addition of extended reals is a commutative monoid: Pooling.sum_tiles, Accumulate.run_eq), the
  weight totals formed as a product with ones (x · 1 = x), narrowings to bf16 (the identity on the extended reals),
  and the reference's extra maximum of the running maximum with its own starting value.  No entry has to be finite.

  Modules: Pooling (the specification), TileValues / TileSpec (one tile, entry by entry), Pieces (what each kind of
  grid point leaves), Accumulate (the accumulators after every point, the last tile's block), Blocks (the input
  blocks read off the arguments), OutArray (the blocks fill the result array; the reshape after the region),
  KernelRun (the kernel's run ends at the specification), RefStages (the reference's operations compose to the
  specification).  The three frames are the generated ones; the idealization rewrote nothing.
-/
import proofs.«177332_j58540404244567_1_alg».proof.Defs
import proofs.«177332_j58540404244567_1_alg».proof.Proof.Gen.Kernel
import proofs.«177332_j58540404244567_1_alg».proof.Proof.Gen.Kernel.Frame
import proofs.«177332_j58540404244567_1_alg».proof.Proof.Gen.KernelIdeal
import proofs.«177332_j58540404244567_1_alg».proof.Proof.Gen.KernelIdeal.Frame
import proofs.«177332_j58540404244567_1_alg».proof.Proof.Gen.ReferenceIdeal
import proofs.«177332_j58540404244567_1_alg».proof.Proof.Gen.ReferenceIdeal.Run
import proofs.«177332_j58540404244567_1_alg».proof.Proof.Gen.Pre_finite_inputs
import proofs.«177332_j58540404244567_1_alg».proof.Proof.KernelRun
import proofs.«177332_j58540404244567_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's result of arguments that agree. -/
theorem algebraic : Cert.algebraic_KernelIdeal_ReferenceIdeal := by
  intro m ρ m' ρ' _ hagree
  refine ⟨fun c => Cert.Pooling.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v48_eq, Cert.RefStages.reference_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
